-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S120000 : Shape := ⟨1, ![120000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x128 .f32) (main_arg10 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : IVec S2x600000 32) (main_arg12 : IVec S120000 32) (main_arg13 : IVec S120000 32) (main_arg14 : IVec S120000 32) (main_arg15 : IVec S120000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S120000 : Shape := ⟨1, ![120000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S120000x1 : Shape := ⟨2, ![120000, 1]⟩
abbrev S120000x128 : Shape := ⟨2, ![120000, 128]⟩
abbrev S20000x128 : Shape := ⟨2, ![20000, 128]⟩

abbrev nBuf : Space → Nat
  | .hbm => 95
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x600000, .i32⟩
  | .hbm, ⟨12, _⟩ => ⟨S120000, .i32⟩
  | .hbm, ⟨13, _⟩ => ⟨S120000, .i32⟩
  | .hbm, ⟨14, _⟩ => ⟨S120000, .i32⟩
  | .hbm, ⟨15, _⟩ => ⟨S120000, .i32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S120000, .i32⟩
  | .hbm, ⟨37, _⟩ => ⟨S120000, .i1⟩
  | .hbm, ⟨38, _⟩ => ⟨S_, .i32⟩
  | .hbm, ⟨39, _⟩ => ⟨S120000, .i32⟩
  | .hbm, ⟨40, _⟩ => ⟨S120000, .i32⟩
  | .hbm, ⟨41, _⟩ => ⟨S120000, .i32⟩
  | .hbm, ⟨42, _⟩ => ⟨S120000x1, .i32⟩
  | .hbm, ⟨43, _⟩ => ⟨S120000x128, .f32⟩
  | .hbm, ⟨44, _⟩ => ⟨S_, .f32⟩
  | .hbm, ⟨45, _⟩ => ⟨S20000x128, .f32⟩
  | .hbm, ⟨46, _⟩ => ⟨S120000x1, .i32⟩
  | .hbm, ⟨47, _⟩ => ⟨S20000x128, .f32⟩
  | .hbm, ⟨48, _⟩ => ⟨S1x128, .f32⟩
  | .hbm, ⟨49, _⟩ => ⟨S20000x128, .f32⟩
  | .hbm, ⟨50, _⟩ => ⟨S_, .i32⟩
  | .hbm, ⟨51, _⟩ => ⟨S120000, .i32⟩
  | .hbm, ⟨52, _⟩ => ⟨S120000, .i1⟩
  | .hbm, ⟨53, _⟩ => ⟨S_, .i32⟩
  | .hbm, ⟨54, _⟩ => ⟨S120000, .i32⟩
  | .hbm, ⟨55, _⟩ => ⟨S120000, .i32⟩
  | .hbm, ⟨56, _⟩ => ⟨S120000, .i32⟩
  | .hbm, ⟨57, _⟩ => ⟨S120000x1, .i32⟩
  | .hbm, ⟨58, _⟩ => ⟨S120000x128, .f32⟩
  | .hbm, ⟨59, _⟩ => ⟨S_, .f32⟩
  | .hbm, ⟨60, _⟩ => ⟨S50000x128, .f32⟩
  | .hbm, ⟨61, _⟩ => ⟨S120000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S120000, .i32⟩
  | .hbm, ⟨67, _⟩ => ⟨S120000, .i1⟩
  | .hbm, ⟨68, _⟩ => ⟨S_, .i32⟩
  | .hbm, ⟨69, _⟩ => ⟨S120000, .i32⟩
  | .hbm, ⟨70, _⟩ => ⟨S120000, .i32⟩
  | .hbm, ⟨71, _⟩ => ⟨S120000, .i32⟩
  | .hbm, ⟨72, _⟩ => ⟨S120000x1, .i32⟩
  | .hbm, ⟨73, _⟩ => ⟨S120000x128, .f32⟩
  | .hbm, ⟨74, _⟩ => ⟨S_, .f32⟩
  | .hbm, ⟨75, _⟩ => ⟨S20000x128, .f32⟩
  | .hbm, ⟨76, _⟩ => ⟨S120000x1, .i32⟩
  | .hbm, ⟨77, _⟩ => ⟨S20000x128, .f32⟩
  | .hbm, ⟨78, _⟩ => ⟨S1x128, .f32⟩
  | .hbm, ⟨79, _⟩ => ⟨S20000x128, .f32⟩
  | .hbm, ⟨80, _⟩ => ⟨S_, .i32⟩
  | .hbm, ⟨81, _⟩ => ⟨S120000, .i32⟩
  | .hbm, ⟨82, _⟩ => ⟨S120000, .i1⟩
  | .hbm, ⟨83, _⟩ => ⟨S_, .i32⟩
  | .hbm, ⟨84, _⟩ => ⟨S120000, .i32⟩
  | .hbm, ⟨85, _⟩ => ⟨S120000, .i32⟩
  | .hbm, ⟨86, _⟩ => ⟨S120000, .i32⟩
  | .hbm, ⟨87, _⟩ => ⟨S120000x1, .i32⟩
  | .hbm, ⟨88, _⟩ => ⟨S120000x128, .f32⟩
  | .hbm, ⟨89, _⟩ => ⟨S_, .f32⟩
  | .hbm, ⟨90, _⟩ => ⟨S50000x128, .f32⟩
  | .hbm, ⟨91, _⟩ => ⟨S120000x1, .i32⟩
  | .hbm, ⟨92, _⟩ => ⟨S50000x128, .f32⟩
  | .hbm, ⟨93, _⟩ => ⟨S1x128, .f32⟩
  | .hbm, ⟨94, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_1 : Ref sig .tc := ⟨.hbm, 35, rfl⟩
abbrev main_v16 : Ref sig .tc := ⟨.hbm, 36, rfl⟩
abbrev main_v17 : Ref sig .tc := ⟨.hbm, 37, rfl⟩
abbrev main_c_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_4 : Ref sig .tc := ⟨.hbm, 50, rfl⟩
abbrev main_v28 : Ref sig .tc := ⟨.hbm, 51, rfl⟩
abbrev main_v29 : Ref sig .tc := ⟨.hbm, 52, rfl⟩
abbrev main_c_5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc4_stg4_0 : Ref sig .tc := ⟨.vmem, 34, rfl⟩
abbrev cc4_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc4_sem4_0 : DmaSem sig := 34
abbrev cc4_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S120000 : S_.BroadcastsInDim S120000 (![] : Fin 0 → Fin S120000.rank)
  bcast_S120000_S120000x1_0 : S120000.BroadcastsInDim S120000x1 (![0] : Fin 1 → Fin S120000x1.rank)
  bcast_S_S20000x128 : S_.BroadcastsInDim S20000x128 (![] : Fin 0 → Fin S20000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  gather_S50000x128_S120000x1_S120000x128_1_0_n_n_0_1_1128_wf : GatherDims.WF S50000x128 S120000x1 S120000x128 [1] [0] [] [0] [] 1 ![1, 128]
  scatter_S20000x128_S120000x1_S120000x128_1_0_0_1_wf : ScatterDims.WF S20000x128 S120000x1 S120000x128 [1] [0] [0] 1
  gather_S20000x128_S120000x1_S120000x128_1_0_n_n_0_1_1128_wf : GatherDims.WF S20000x128 S120000x1 S120000x128 [1] [0] [] [0] [] 1 ![1, 128]
  scatter_S50000x128_S120000x1_S120000x128_1_0_0_1_wf : ScatterDims.WF S50000x128 S120000x1 S120000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S20000x128.size a
  hwx1_0 : ∀ i : grid1.Coords, EltTy.bits .f32 = 32 ∨ (Rect.block (s := S20000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S20000x128.size a
  hwx1_3 : ∀ i : grid1.Coords, EltTy.bits .f32 = 32 ∨ (Rect.block (s := S20000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S20000x128.size a
  hwx3_0 : ∀ i : grid3.Coords, EltTy.bits .f32 = 32 ∨ (Rect.block (s := S20000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S20000x128.size a
  hwx3_3 : ∀ i : grid3.Coords, EltTy.bits .f32 = 32 ∨ (Rect.block (s := S20000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S120000x1_S120000x128_1_0_n_n_0_1_1128 : GatherDims S50000x128 S120000x1 S120000x128 where
  offsetDims := [1]
  collapsedSliceDims := [0]
  operandBatchingDims := []
  startIndicesBatchingDims := []
  startIndexMap := [0]
  indexVectorDim := 1
  sliceSizes := ![1, 128]
  wf := gather_S50000x128_S120000x1_S120000x128_1_0_n_n_0_1_1128_wf
def scatter_S20000x128_S120000x1_S120000x128_1_0_0_1 : ScatterDims S20000x128 S120000x1 S120000x128 where
  updateWindowDims := [1]
  insertedWindowDims := [0]
  scatterDimsToOperandDims := [0]
  indexVectorDim := 1
  wf := scatter_S20000x128_S120000x1_S120000x128_1_0_0_1_wf
def gather_S20000x128_S120000x1_S120000x128_1_0_n_n_0_1_1128 : GatherDims S20000x128 S120000x1 S120000x128 where
  offsetDims := [1]
  collapsedSliceDims := [0]
  operandBatchingDims := []
  startIndicesBatchingDims := []
  startIndexMap := [0]
  indexVectorDim := 1
  sliceSizes := ![1, 128]
  wf := gather_S20000x128_S120000x1_S120000x128_1_0_n_n_0_1_1128_wf
def scatter_S50000x128_S120000x1_S120000x128_1_0_0_1 : ScatterDims S50000x128 S120000x1 S120000x128 where
  updateWindowDims := [1]
  insertedWindowDims := [0]
  scatterDimsToOperandDims := [0]
  indexVectorDim := 1
  wf := scatter_S50000x128_S120000x1_S120000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S5000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v63) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x600000 : Shape := ⟨2, ![2, 600000]⟩
abbrev S120000 : Shape := ⟨1, ![120000]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S120000x1 : Shape := ⟨2, ![120000, 1]⟩
abbrev S120000x128 : Shape := ⟨2, ![120000, 128]⟩
abbrev S20000x128 : Shape := ⟨2, ![20000, 128]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S2x600000, .i32⟩
  | .hbm, ⟨12, _⟩ => ⟨S120000, .i32⟩
  | .hbm, ⟨13, _⟩ => ⟨S120000, .i32⟩
  | .hbm, ⟨14, _⟩ => ⟨S120000, .i32⟩
  | .hbm, ⟨15, _⟩ => ⟨S120000, .i32⟩
  | .hbm, ⟨16, _⟩ => ⟨S1x600000, .i32⟩
  | .hbm, ⟨17, _⟩ => ⟨S600000, .i32⟩
  | .hbm, ⟨18, _⟩ => ⟨S1x600000, .i32⟩
  | .hbm, ⟨19, _⟩ => ⟨S600000, .i32⟩
  | .hbm, ⟨20, _⟩ => ⟨S_, .i32⟩
  | .hbm, ⟨21, _⟩ => ⟨S600000, .i32⟩
  | .hbm, ⟨22, _⟩ => ⟨S600000, .i1⟩
  | .hbm, ⟨23, _⟩ => ⟨S_, .i32⟩
  | .hbm, ⟨24, _⟩ => ⟨S600000, .i32⟩
  | .hbm, ⟨25, _⟩ => ⟨S600000, .i32⟩
  | .hbm, ⟨26, _⟩ => ⟨S600000, .i32⟩
  | .hbm, ⟨27, _⟩ => ⟨S600000x1, .i32⟩
  | .hbm, ⟨28, _⟩ => ⟨S600000x128, .f32⟩
  | .hbm, ⟨29, _⟩ => ⟨S_, .f32⟩
  | .hbm, ⟨30, _⟩ => ⟨S50000x128, .f32⟩
  | .hbm, ⟨31, _⟩ => ⟨S600000x1, .i32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S120000, .i32⟩
  | .hbm, ⟨43, _⟩ => ⟨S120000, .i1⟩
  | .hbm, ⟨44, _⟩ => ⟨S_, .i32⟩
  | .hbm, ⟨45, _⟩ => ⟨S120000, .i32⟩
  | .hbm, ⟨46, _⟩ => ⟨S120000, .i32⟩
  | .hbm, ⟨47, _⟩ => ⟨S120000, .i32⟩
  | .hbm, ⟨48, _⟩ => ⟨S120000x1, .i32⟩
  | .hbm, ⟨49, _⟩ => ⟨S120000x128, .f32⟩
  | .hbm, ⟨50, _⟩ => ⟨S_, .f32⟩
  | .hbm, ⟨51, _⟩ => ⟨S20000x128, .f32⟩
  | .hbm, ⟨52, _⟩ => ⟨S120000x1, .i32⟩
  | .hbm, ⟨53, _⟩ => ⟨S20000x128, .f32⟩
  | .hbm, ⟨54, _⟩ => ⟨S20000x128, .f32⟩
  | .hbm, ⟨55, _⟩ => ⟨S1x128, .f32⟩
  | .hbm, ⟨56, _⟩ => ⟨S20000x128, .f32⟩
  | .hbm, ⟨57, _⟩ => ⟨S20000x128, .f32⟩
  | .hbm, ⟨58, _⟩ => ⟨S_, .i32⟩
  | .hbm, ⟨59, _⟩ => ⟨S120000, .i32⟩
  | .hbm, ⟨60, _⟩ => ⟨S120000, .i1⟩
  | .hbm, ⟨61, _⟩ => ⟨S_, .i32⟩
  | .hbm, ⟨62, _⟩ => ⟨S120000, .i32⟩
  | .hbm, ⟨63, _⟩ => ⟨S120000, .i32⟩
  | .hbm, ⟨64, _⟩ => ⟨S120000, .i32⟩
  | .hbm, ⟨65, _⟩ => ⟨S120000x1, .i32⟩
  | .hbm, ⟨66, _⟩ => ⟨S120000x128, .f32⟩
  | .hbm, ⟨67, _⟩ => ⟨S_, .f32⟩
  | .hbm, ⟨68, _⟩ => ⟨S50000x128, .f32⟩
  | .hbm, ⟨69, _⟩ => ⟨S120000x1, .i32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S120000, .i32⟩
  | .hbm, ⟨78, _⟩ => ⟨S120000, .i1⟩
  | .hbm, ⟨79, _⟩ => ⟨S_, .i32⟩
  | .hbm, ⟨80, _⟩ => ⟨S120000, .i32⟩
  | .hbm, ⟨81, _⟩ => ⟨S120000, .i32⟩
  | .hbm, ⟨82, _⟩ => ⟨S120000, .i32⟩
  | .hbm, ⟨83, _⟩ => ⟨S120000x1, .i32⟩
  | .hbm, ⟨84, _⟩ => ⟨S120000x128, .f32⟩
  | .hbm, ⟨85, _⟩ => ⟨S_, .f32⟩
  | .hbm, ⟨86, _⟩ => ⟨S20000x128, .f32⟩
  | .hbm, ⟨87, _⟩ => ⟨S120000x1, .i32⟩
  | .hbm, ⟨88, _⟩ => ⟨S20000x128, .f32⟩
  | .hbm, ⟨89, _⟩ => ⟨S20000x128, .f32⟩
  | .hbm, ⟨90, _⟩ => ⟨S1x128, .f32⟩
  | .hbm, ⟨91, _⟩ => ⟨S20000x128, .f32⟩
  | .hbm, ⟨92, _⟩ => ⟨S20000x128, .f32⟩
  | .hbm, ⟨93, _⟩ => ⟨S_, .i32⟩
  | .hbm, ⟨94, _⟩ => ⟨S120000, .i32⟩
  | .hbm, ⟨95, _⟩ => ⟨S120000, .i1⟩
  | .hbm, ⟨96, _⟩ => ⟨S_, .i32⟩
  | .hbm, ⟨97, _⟩ => ⟨S120000, .i32⟩
  | .hbm, ⟨98, _⟩ => ⟨S120000, .i32⟩
  | .hbm, ⟨99, _⟩ => ⟨S120000, .i32⟩
  | .hbm, ⟨100, _⟩ => ⟨S120000x1, .i32⟩
  | .hbm, ⟨101, _⟩ => ⟨S120000x128, .f32⟩
  | .hbm, ⟨102, _⟩ => ⟨S_, .f32⟩
  | .hbm, ⟨103, _⟩ => ⟨S50000x128, .f32⟩
  | .hbm, ⟨104, _⟩ => ⟨S120000x1, .i32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_c_1 : Ref sig .tc := ⟨.hbm, 41, rfl⟩
abbrev main_v20 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_c_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_7 : Ref sig .tc := ⟨.hbm, 76, rfl⟩
abbrev main_v49 : Ref sig .tc := ⟨.hbm, 77, rfl⟩
abbrev main_v50 : Ref sig .tc := ⟨.hbm, 78, rfl⟩
abbrev main_c_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_10 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_12 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S120000 : S_.BroadcastsInDim S120000 (![] : Fin 0 → Fin S120000.rank)
  bcast_S120000_S120000x1_0 : S120000.BroadcastsInDim S120000x1 (![0] : Fin 1 → Fin S120000x1.rank)
  bcast_S_S20000x128 : S_.BroadcastsInDim S20000x128 (![] : Fin 0 → Fin S20000x128.rank)
  bcast_S1x128_S20000x128_0_1 : S1x128.BroadcastsInDim S20000x128 (![0, 1] : Fin 2 → Fin S20000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  gather_S50000x128_S120000x1_S120000x128_1_0_n_n_0_1_1128_wf : GatherDims.WF S50000x128 S120000x1 S120000x128 [1] [0] [] [0] [] 1 ![1, 128]
  scatter_S20000x128_S120000x1_S120000x128_1_0_0_1_wf : ScatterDims.WF S20000x128 S120000x1 S120000x128 [1] [0] [0] 1
  dot_S20000x128_S128x128_S20000x128_1_0_0_1_n_n_wf : DotDims.WF S20000x128 S128x128 S20000x128 [1] [0] [0] [1] [] []
  gather_S20000x128_S120000x1_S120000x128_1_0_n_n_0_1_1128_wf : GatherDims.WF S20000x128 S120000x1 S120000x128 [1] [0] [] [0] [] 1 ![1, 128]
  scatter_S50000x128_S120000x1_S120000x128_1_0_0_1_wf : ScatterDims.WF S50000x128 S120000x1 S120000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S120000x1_S120000x128_1_0_n_n_0_1_1128 : GatherDims S50000x128 S120000x1 S120000x128 where
  offsetDims := [1]
  collapsedSliceDims := [0]
  operandBatchingDims := []
  startIndicesBatchingDims := []
  startIndexMap := [0]
  indexVectorDim := 1
  sliceSizes := ![1, 128]
  wf := gather_S50000x128_S120000x1_S120000x128_1_0_n_n_0_1_1128_wf
def scatter_S20000x128_S120000x1_S120000x128_1_0_0_1 : ScatterDims S20000x128 S120000x1 S120000x128 where
  updateWindowDims := [1]
  insertedWindowDims := [0]
  scatterDimsToOperandDims := [0]
  indexVectorDim := 1
  wf := scatter_S20000x128_S120000x1_S120000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S120000x1_S120000x128_1_0_n_n_0_1_1128 : GatherDims S20000x128 S120000x1 S120000x128 where
  offsetDims := [1]
  collapsedSliceDims := [0]
  operandBatchingDims := []
  startIndicesBatchingDims := []
  startIndexMap := [0]
  indexVectorDim := 1
  sliceSizes := ![1, 128]
  wf := gather_S20000x128_S120000x1_S120000x128_1_0_n_n_0_1_1128_wf
def scatter_S50000x128_S120000x1_S120000x128_1_0_0_1 : ScatterDims S50000x128 S120000x1 S120000x128 where
  updateWindowDims := [1]
  insertedWindowDims := [0]
  scatterDimsToOperandDims := [0]
  indexVectorDim := 1
  wf := scatter_S50000x128_S120000x1_S120000x128_1_0_0_1_wf

class Facts : Prop extends Facts₀ where

variable [Facts]
-- ==== Proof.KernelRun.lean ====
/-
  The idealized kernel's run with the final contents of every buffer kept.

  The program is ten segments: five stretches of host operations and five kernel regions. Running them in order from the
  launch memory, every weakly fair execution terminates without a fault, and each buffer that lives for the whole run ends
  holding what the last boundary's contents give it: a host stretch applies its operations' pure terms, a region replaces
  its output array by what its grid points write back and leaves every other buffer alone. The frame claim keeps only the
  sixteen argument arrays of this final state; here the whole final state is kept, so that the result buffer can be read too.
-/
import proofs.«124323_j44744969290501_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every whole-run buffer at the contents
    the last of the ten boundaries gives it. -/
theorem final_state : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The same run, keeping the result buffer and the sixteen argument arrays. -/
theorem result_and_arguments : θ_run defs (onTc (τ := τ) (main (F := F))) ⟨m, fun _ => 0, ρ⟩ (fun r => ∀ c : Dev nD,
      r.2.mem ((c.tc : Thread nD τ).loc main_v63) = W10 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun s h c =>
      ⟨h c _ (mem_uc main_v63 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c)⟩)
    (final_state m ρ)

end Cert.KernelIdeal.Run

end
-- ==== Proof.Kept.lean ====
/-
  Which buffers each stretch of host operations leaves alone.

  Between two kernel regions the program runs a stretch of host operations, each writing one buffer of its own. A buffer none of
  them writes holds after the stretch what it held before: the argument arrays (no operation ever writes one) and the node features
  a residual connection reads again two regions later.
-/
import proofs.«124323_j44744969290501_1_alg».proof.Proof.Gen.KernelIdeal.Frame

set_option maxRecDepth 16384

noncomputable section

namespace Cert.KernelIdeal.Kept

open Idealize.ShloMosaic Idealize.SL.Sem Cert.KernelIdeal Cert.KernelIdeal.Gen

variable {F : FTy → Type} [FloatOps F]

variable (m : (ℓ : Loc nD τ sig) → Buf (Elt F) ℓ) (ρ : Dev nD → PrngReg)

/-! ## Stretch 0 -/

theorem stretch0_main_arg0 (c : Dev nD) : W1 (F := F) m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg1 (c : Dev nD) : W1 (F := F) m ρ c (Proc.devRef .tc main_arg1) = W0 m ρ c (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg3 (c : Dev nD) : W1 (F := F) m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg4 (c : Dev nD) : W1 (F := F) m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg5 (c : Dev nD) : W1 (F := F) m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg6 (c : Dev nD) : W1 (F := F) m ρ c (Proc.devRef .tc main_arg6) = W0 m ρ c (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg7 (c : Dev nD) : W1 (F := F) m ρ c (Proc.devRef .tc main_arg7) = W0 m ρ c (Proc.devRef .tc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg8 (c : Dev nD) : W1 (F := F) m ρ c (Proc.devRef .tc main_arg8) = W0 m ρ c (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg9 (c : Dev nD) : W1 (F := F) m ρ c (Proc.devRef .tc main_arg9) = W0 m ρ c (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg10 (c : Dev nD) : W1 (F := F) m ρ c (Proc.devRef .tc main_arg10) = W0 m ρ c (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg12 (c : Dev nD) : W1 (F := F) m ρ c (Proc.devRef .tc main_arg12) = W0 m ρ c (Proc.devRef .tc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg13 (c : Dev nD) : W1 (F := F) m ρ c (Proc.devRef .tc main_arg13) = W0 m ρ c (Proc.devRef .tc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg14 (c : Dev nD) : W1 (F := F) m ρ c (Proc.devRef .tc main_arg14) = W0 m ρ c (Proc.devRef .tc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch0_main_arg15 (c : Dev nD) : W1 (F := F) m ρ c (Proc.devRef .tc main_arg15) = W0 m ρ c (Proc.devRef .tc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 1 -/

theorem stretch1_main_arg3 (c : Dev nD) : W3 (F := F) m ρ c (Proc.devRef .tc main_arg3) = W2 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg5 (c : Dev nD) : W3 (F := F) m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg6 (c : Dev nD) : W3 (F := F) m ρ c (Proc.devRef .tc main_arg6) = W2 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg7 (c : Dev nD) : W3 (F := F) m ρ c (Proc.devRef .tc main_arg7) = W2 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg8 (c : Dev nD) : W3 (F := F) m ρ c (Proc.devRef .tc main_arg8) = W2 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg9 (c : Dev nD) : W3 (F := F) m ρ c (Proc.devRef .tc main_arg9) = W2 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg10 (c : Dev nD) : W3 (F := F) m ρ c (Proc.devRef .tc main_arg10) = W2 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg12 (c : Dev nD) : W3 (F := F) m ρ c (Proc.devRef .tc main_arg12) = W2 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg13 (c : Dev nD) : W3 (F := F) m ρ c (Proc.devRef .tc main_arg13) = W2 m ρ c (Proc.devRef .tc main_arg13) :=
  StableHlo.after_of_forall_not_mem (b := Proc.devRef .tc main_arg13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg14 (c : Dev nD) : W3 (F := F) m ρ c (Proc.devRef .tc main_arg14) = W2 m ρ c (Proc.devRef .tc main_arg14) :=
  StableHlo.after_of_forall_not_mem (b := Proc.devRef .tc main_arg14) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_arg15 (c : Dev nD) : W3 (F := F) m ρ c (Proc.devRef .tc main_arg15) = W2 m ρ c (Proc.devRef .tc main_arg15) :=
  StableHlo.after_of_forall_not_mem (b := Proc.devRef .tc main_arg15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch1_main_v15 (c : Dev nD) : W3 (F := F) m ρ c (Proc.devRef .tc main_v15) = W2 m ρ c (Proc.devRef .tc main_v15) :=
  StableHlo.after_of_forall_not_mem (b := Proc.devRef .tc main_v15) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 2 -/

theorem stretch2_main_arg5 (c : Dev nD) : W5 (F := F) m ρ c (Proc.devRef .tc main_arg5) = W4 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg7 (c : Dev nD) : W5 (F := F) m ρ c (Proc.devRef .tc main_arg7) = W4 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg8 (c : Dev nD) : W5 (F := F) m ρ c (Proc.devRef .tc main_arg8) = W4 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg9 (c : Dev nD) : W5 (F := F) m ρ c (Proc.devRef .tc main_arg9) = W4 m ρ c (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg10 (c : Dev nD) : W5 (F := F) m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg14 (c : Dev nD) : W5 (F := F) m ρ c (Proc.devRef .tc main_arg14) = W4 m ρ c (Proc.devRef .tc main_arg14) :=
  StableHlo.after_of_forall_not_mem (b := Proc.devRef .tc main_arg14) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_arg15 (c : Dev nD) : W5 (F := F) m ρ c (Proc.devRef .tc main_arg15) = W4 m ρ c (Proc.devRef .tc main_arg15) :=
  StableHlo.after_of_forall_not_mem (b := Proc.devRef .tc main_arg15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch2_main_v15 (c : Dev nD) : W5 (F := F) m ρ c (Proc.devRef .tc main_v15) = W4 m ρ c (Proc.devRef .tc main_v15) :=
  StableHlo.after_of_forall_not_mem (b := Proc.devRef .tc main_v15) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 3 -/

theorem stretch3_main_arg7 (c : Dev nD) : W7 (F := F) m ρ c (Proc.devRef .tc main_arg7) = W6 m ρ c (Proc.devRef .tc main_arg7) :=
  StableHlo.after_of_forall_not_mem (b := Proc.devRef .tc main_arg7) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch3_main_arg9 (c : Dev nD) : W7 (F := F) m ρ c (Proc.devRef .tc main_arg9) = W6 m ρ c (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch3_main_arg10 (c : Dev nD) : W7 (F := F) m ρ c (Proc.devRef .tc main_arg10) = W6 m ρ c (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch3_main_arg14 (c : Dev nD) : W7 (F := F) m ρ c (Proc.devRef .tc main_arg14) = W6 m ρ c (Proc.devRef .tc main_arg14) :=
  StableHlo.after_of_forall_not_mem (b := Proc.devRef .tc main_arg14) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch3_main_arg15 (c : Dev nD) : W7 (F := F) m ρ c (Proc.devRef .tc main_arg15) = W6 m ρ c (Proc.devRef .tc main_arg15) :=
  StableHlo.after_of_forall_not_mem (b := Proc.devRef .tc main_arg15) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch3_main_v39 (c : Dev nD) : W7 (F := F) m ρ c (Proc.devRef .tc main_v39) = W6 m ρ c (Proc.devRef .tc main_v39) :=
  StableHlo.after_of_forall_not_mem (b := Proc.devRef .tc main_v39) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Stretch 4 -/

theorem stretch4_main_arg9 (c : Dev nD) : W9 (F := F) m ρ c (Proc.devRef .tc main_arg9) = W8 m ρ c (Proc.devRef .tc main_arg9) :=
  StableHlo.after_of_forall_not_mem (b := Proc.devRef .tc main_arg9) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem stretch4_main_v39 (c : Dev nD) : W9 (F := F) m ρ c (Proc.devRef .tc main_v39) = W8 m ρ c (Proc.devRef .tc main_v39) :=
  StableHlo.after_of_forall_not_mem (b := Proc.devRef .tc main_v39) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.Kept

end
-- ==== Proof.LibHostProduct.lean ====
/-
  A plain matrix product computed on the host, read at one entry.

  For a matrix `l` of shape `[M, K]` and a matrix `r` of shape `[K, N]`, contracted over `l`'s second axis and `r`'s first,
  the host's product has no accumulator: its entry `(p, c)` on the extended reals is `∑ k, l[p, k] · r[k, c]`. The
  contraction index has a single axis of extent `K` and is traded for its one coordinate `k`, and the operand indices at
  the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.HostProduct

open Idealize.ShloMosaic Idealize.ShloMosaic.ValueIdx

/-- Entry `(p, c)` of the host's `[M, K]` by `[K, N]` product is `∑ k, l[p, k] · r[k, c]`, for any dimension numbers `D`
    whose contraction has the one axis of extent `K` and whose operand indices read `(p, k)` and `(k, c)`. -/
theorem dotGeneral_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    Host.dotGeneral (F := Ideal) D none l r (ix2 p c) = ∑ k : Fin K, l (ix2 p k) * r (ix2 k c) := by
  show FloatOps.dotGeneral D none .single l r (ix2 p c) = _
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.HostProduct

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.Layers.lean ====
/-
  The dense layers of the message-passing network, as the host computes them, and each one's entry.

  A linear layer sends a feature matrix `x` of shape `[M, 128]`, a weight `w` of shape `[128, 128]` and a bias row `b` of
  shape `[1, 128]` to `x · w + b`, the bias repeated down the rows: entry `(p, q)` is `∑ k, x[p, k] · w[k, q] + b[0, q]` on the
  extended reals. Two sizes occur: `M = 50000` (one row per node) and `M = 20000` (one row per substructure). The first
  layer's activation is `max(·, 0)`, entry by entry. A bias vector of shape `[128]` becomes the row `[1, 128]` either by
  a broadcast along a new leading axis or by a reshape; both read `b[q]` at `(0, q)`.
-/
import proofs.«124323_j44744969290501_1_alg».proof.ReferenceIdeal
import proofs.«124323_j44744969290501_1_alg».proof.Proof.Gen.ReferenceIdeal
import proofs.«124323_j44744969290501_1_alg».proof.Proof.LibHostProduct
import proofs.«124323_j44744969290501_1_alg».proof.Proof.LibHostLayout
import Idealize.ShloMosaic.Lib.ValueIdx
import Idealize.ShloMosaic.Lib.ValueLayout
import Idealize.ShloMosaic.PureOps.Ideal.Laws

noncomputable section

namespace Cert.Layers

open Idealize.ShloMosaic Idealize.ShloMosaic.ValueIdx Cert.ReferenceIdeal Cert.ReferenceIdeal.Gen

/-! ## The two host products' dimension facts -/

local notation "D50" => dot_S50000x128_S128x128_S50000x128_1_0_0_1_n_n
local notation "D20" => dot_S20000x128_S128x128_S20000x128_1_0_0_1_n_n

theorem d50_l0 (i : S50000x128.Idx) (q : (D50).contr.Idx) : ((D50).lhsIdx i q 0).val = (i 0).val := by
  unfold DotDims.lhsIdx
  rw [dif_neg (show ¬(0 : Fin S50000x128.rank) ∈ (D50).lhsBatch by decide), dif_pos (show (0 : Fin S50000x128.rank) ∈ (D50).lhsNonContracting by decide)]
  rfl
theorem d50_l1 (i : S50000x128.Idx) (q : (D50).contr.Idx) : ((D50).lhsIdx i q 1).val = (q ⟨0, by decide⟩).val :=
  (D50).lhsIdx_val_of_single rfl i q
theorem d50_r0 (i : S50000x128.Idx) (q : (D50).contr.Idx) : ((D50).rhsIdx i q 0).val = (q ⟨0, by decide⟩).val :=
  (D50).rhsIdx_val_of_single rfl i q
theorem d50_r1 (i : S50000x128.Idx) (q : (D50).contr.Idx) : ((D50).rhsIdx i q 1).val = (i 1).val := by
  unfold DotDims.rhsIdx
  rw [dif_neg (show ¬(1 : Fin S128x128.rank) ∈ (D50).rhsBatch by decide), dif_pos (show (1 : Fin S128x128.rank) ∈ (D50).rhsNonContracting by decide)]
  rfl

theorem d20_l0 (i : S20000x128.Idx) (q : (D20).contr.Idx) : ((D20).lhsIdx i q 0).val = (i 0).val := by
  unfold DotDims.lhsIdx
  rw [dif_neg (show ¬(0 : Fin S20000x128.rank) ∈ (D20).lhsBatch by decide), dif_pos (show (0 : Fin S20000x128.rank) ∈ (D20).lhsNonContracting by decide)]
  rfl
theorem d20_l1 (i : S20000x128.Idx) (q : (D20).contr.Idx) : ((D20).lhsIdx i q 1).val = (q ⟨0, by decide⟩).val :=
  (D20).lhsIdx_val_of_single rfl i q
theorem d20_r0 (i : S20000x128.Idx) (q : (D20).contr.Idx) : ((D20).rhsIdx i q 0).val = (q ⟨0, by decide⟩).val :=
  (D20).rhsIdx_val_of_single rfl i q
theorem d20_r1 (i : S20000x128.Idx) (q : (D20).contr.Idx) : ((D20).rhsIdx i q 1).val = (i 1).val := by
  unfold DotDims.rhsIdx
  rw [dif_neg (show ¬(1 : Fin S128x128.rank) ∈ (D20).rhsBatch by decide), dif_pos (show (1 : Fin S128x128.rank) ∈ (D20).rhsNonContracting by decide)]
  rfl

/-! ## The layers -/

/-- `x · w + b` over the 50000 node rows, the bias row repeated down the rows. -/
def linear50 (x : FVec Ideal S50000x128 .f32) (w : FVec Ideal S128x128 .f32) (b : FVec Ideal S1x128 .f32) : FVec Ideal S50000x128 .f32 :=
  addf (Host.dotGeneral (F := Ideal) D50 none x w) (broadcastInDim S50000x128 ![0, 1] bcast_S1x128_S50000x128_0_1 b)

/-- `x · w + b` over the 20000 substructure rows. -/
def linear20 (x : FVec Ideal S20000x128 .f32) (w : FVec Ideal S128x128 .f32) (b : FVec Ideal S1x128 .f32) : FVec Ideal S20000x128 .f32 :=
  addf (Host.dotGeneral (F := Ideal) D20 none x w) (broadcastInDim S20000x128 ![0, 1] bcast_S1x128_S20000x128_0_1 b)

/-- `max(y, 0)`, entry by entry, over the node rows. -/
def relu50 (y : FVec Ideal S50000x128 .f32) : FVec Ideal S50000x128 .f32 :=
  maximumf y (broadcastInDim S50000x128 ![] bcast_S_S50000x128 (constant (F := Ideal) S_ .f32 0x00000000#32))

/-- A bias vector as the one-row matrix the layers take: the host's broadcast along a new leading axis. -/
def biasRow (b : FVec Ideal S128 .f32) : FVec Ideal S1x128 .f32 := broadcastInDim S1x128 ![1] bcast_S128_S1x128_1 b

theorem linear50_entry (x : FVec Ideal S50000x128 .f32) (w : FVec Ideal S128x128 .f32) (b : FVec Ideal S1x128 .f32)
    (p : Fin 50000) (q : Fin 128) :
    linear50 x w b (ix2 p q) = (∑ k : Fin 128, x (ix2 p k) * w (ix2 k q)) + b (ix2 (0 : Fin 1) q) := by
  unfold linear50
  rw [addf_apply, Cert.HostProduct.dotGeneral_entry D50 rfl rfl d50_l0 d50_l1 d50_r0 d50_r1,
    Cert.HostLayout.broadcastInDim_1b_ab_apply]

theorem linear20_entry (x : FVec Ideal S20000x128 .f32) (w : FVec Ideal S128x128 .f32) (b : FVec Ideal S1x128 .f32)
    (p : Fin 20000) (q : Fin 128) :
    linear20 x w b (ix2 p q) = (∑ k : Fin 128, x (ix2 p k) * w (ix2 k q)) + b (ix2 (0 : Fin 1) q) := by
  unfold linear20
  rw [addf_apply, Cert.HostProduct.dotGeneral_entry D20 rfl rfl d20_l0 d20_l1 d20_r0 d20_r1,
    Cert.HostLayout.broadcastInDim_1b_ab_apply]

theorem relu50_entry (y : FVec Ideal S50000x128 .f32) (i : S50000x128.Idx) :
    relu50 y i = max (y i) (Ideal.ofBits .f32 0x00000000#32) := by
  unfold relu50
  rw [maximumf_apply, Cert.HostLayout.broadcastInDim_scalar_apply, constant_apply]

/-- A reshape of the bias vector to one row is the broadcast row. -/
theorem reshape_eq_biasRow (b : FVec Ideal S128 .f32) (h : S128.ShapeCasts S1x128) : shapeCast S1x128 b h = biasRow b := by
  funext j
  obtain ⟨u, q, rfl⟩ : ∃ (u : Fin 1) (q : Fin 128), j = ix2 u q := ⟨j 0, j 1, eq_ix2 j⟩
  unfold biasRow
  rw [shapeCast_a_1a_apply, Cert.HostLayout.broadcastInDim_b_1b_apply]

end Cert.Layers

end
-- ==== Proof.Network.lean ====
/-
  The message-passing network as one function of its sixteen arguments.

  Three aggregation steps move features along edges; each gathers rows of a feature matrix at one end of every edge and adds
  them up at the other end (a gather followed by a scatter-add onto zeros, negative indices wrapped once):
  `neighbours` along the node-to-node edges, `nodesToSubs` from nodes to substructures, `subsToNodes` back. They are the host's
  own operations and are never opened: both programs apply the same ones to the same index arrays.
  The network is `x₁ = max((x + neighbours x) · Wm + bm, 0)`, then twice `x ↦ x + (subsToNodes (nodesToSubs x · Wₙ + bₙ)) · Wₛ + bₛ`.
-/
import proofs.«124323_j44744969290501_1_alg».proof.Proof.Layers

noncomputable section

namespace Cert.Network

open Idealize.ShloMosaic Cert.ReferenceIdeal Cert.ReferenceIdeal.Gen Cert.Layers

abbrev Feat50 := FVec Ideal S50000x128 .f32
abbrev Feat20 := FVec Ideal S20000x128 .f32
abbrev Weight := FVec Ideal S128x128 .f32
abbrev Bias := FVec Ideal S128 .f32
abbrev Edges := (⟨S2x600000, .i32⟩ : BufTy).Contents (Elt Ideal)
abbrev Ends := (⟨S120000, .i32⟩ : BufTy).Contents (Elt Ideal)

/-- Row `0` of the edge list, as a vector of 600000 node indices. -/
def edgeSources (e : Edges) : (⟨S600000, .i32⟩ : BufTy).Contents (Elt Ideal) :=
  shapeCast _ (extractStridedSlice S1x600000 ![0, 0] e slices_S2x600000_S1x600000_0_0) shapeCasts_S1x600000_S600000

/-- Row `1` of the edge list. -/
def edgeTargets (e : Edges) : (⟨S600000, .i32⟩ : BufTy).Contents (Elt Ideal) :=
  shapeCast _ (extractStridedSlice S1x600000 ![1, 0] e slices_S2x600000_S1x600000_1_0) shapeCasts_S1x600000_S600000

/-- For every node, the sum of the feature rows of the sources of the edges that end at it. -/
def neighbours (x : Feat50) (e : Edges) : Feat50 :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 (edgeTargets e))
    (Host.gather gather_S50000x128_S600000x1_S600000x128_1_0_n_n_0_1_1128 x
      (broadcastInDim S600000x1 ![0] bcast_S600000_S600000x1_0
        (select (cmpi .slt (edgeSources e) (broadcastInDim S600000 ![] bcast_S_S600000 (constantI S_ 32 0#32)))
          (addi (edgeSources e) (broadcastInDim S600000 ![] bcast_S_S600000 (constantI S_ 32 50000#32))) (edgeSources e))))

/-- For every substructure, the sum of the feature rows of the nodes paired with it. -/
def nodesToSubs (x : Feat50) (row col : Ends) : Feat20 :=
  Host.scatterAdd (F := Ideal) scatter_S20000x128_S120000x1_S120000x128_1_0_0_1
    (broadcastInDim S20000x128 ![] bcast_S_S20000x128 (constant (F := Ideal) S_ .f32 0x00000000#32))
    (broadcastInDim S120000x1 ![0] bcast_S120000_S120000x1_0 col)
    (Host.gather gather_S50000x128_S120000x1_S120000x128_1_0_n_n_0_1_1128 x
      (broadcastInDim S120000x1 ![0] bcast_S120000_S120000x1_0
        (select (cmpi .slt row (broadcastInDim S120000 ![] bcast_S_S120000 (constantI S_ 32 0#32)))
          (addi row (broadcastInDim S120000 ![] bcast_S_S120000 (constantI S_ 32 50000#32))) row)))

/-- For every node, the sum of the feature rows of the substructures paired with it. -/
def subsToNodes (s : Feat20) (row col : Ends) : Feat50 :=
  Host.scatterAdd (F := Ideal) scatter_S50000x128_S120000x1_S120000x128_1_0_0_1
    (broadcastInDim S50000x128 ![] bcast_S_S50000x128 (constant (F := Ideal) S_ .f32 0x00000000#32))
    (broadcastInDim S120000x1 ![0] bcast_S120000_S120000x1_0 row)
    (Host.gather gather_S20000x128_S120000x1_S120000x128_1_0_n_n_0_1_1128 s
      (broadcastInDim S120000x1 ![0] bcast_S120000_S120000x1_0
        (select (cmpi .slt col (broadcastInDim S120000 ![] bcast_S_S120000 (constantI S_ 32 0#32)))
          (addi col (broadcastInDim S120000 ![] bcast_S_S120000 (constantI S_ 32 20000#32))) col)))

/-- The first layer: the node's own features plus its neighbours', through a linear layer and `max(·, 0)`. -/
def combine (x : Feat50) (e : Edges) (w : Weight) (b : Bias) : Feat50 :=
  relu50 (linear50 (addf x (neighbours x e)) w (biasRow b))

/-- The substructure features of one level. -/
def subFeatures (x : Feat50) (row col : Ends) (wn : Weight) (bn : Bias) : Feat20 :=
  linear20 (nodesToSubs x row col) wn (biasRow bn)

/-- One substructure level with its residual connection. -/
def level (x : Feat50) (row col : Ends) (wn : Weight) (bn : Bias) (ws : Weight) (bs : Bias) : Feat50 :=
  addf x (linear50 (subsToNodes (subFeatures x row col wn bn) row col) ws (biasRow bs))

/-- The whole network. -/
def network (x : Feat50) (wm : Weight) (bm : Bias) (wn0 : Weight) (bn0 : Bias) (ws0 : Weight) (bs0 : Bias)
    (wn1 : Weight) (bn1 : Bias) (ws1 : Weight) (bs1 : Bias) (e : Edges) (row0 col0 row1 col1 : Ends) : Feat50 :=
  level (level (combine x e wm bm) row0 col0 wn0 bn0 ws0 bs0) row1 col1 wn1 bn1 ws1 bs1

end Cert.Network

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.BlockProduct.lean ====
/-
  The product every kernel body computes: a block of 5000 feature rows against the whole 128 × 128 weight.

  The kernel's matrix unit multiplies a `[5000, 128]` block by the `[128, 128]` weight into a zero accumulator; on the extended
  reals entry `(p, q)` of the result is `∑ k, block[p, k] · w[k, q]`. The one-row bias `[1, 128]` repeated down the 5000 rows reads
  `b[0, q]` at `(p, q)`.
-/
import proofs.«124323_j44744969290501_1_alg».proof.KernelIdeal
import proofs.«124323_j44744969290501_1_alg».proof.Proof.Gen.KernelIdeal
import proofs.«124323_j44744969290501_1_alg».proof.Proof.LibPlainProduct
import Idealize.ShloMosaic.Lib.ValueIdx
import Idealize.ShloMosaic.Lib.ValueLayout

noncomputable section

namespace Cert.KernelIdeal.BlockProduct

open Idealize.ShloMosaic Idealize.ShloMosaic.ValueIdx Cert.KernelIdeal Cert.KernelIdeal.Gen

local notation "DK" => dot_S5000x128_S128x128_S5000x128_1_0_0_1_n_n

theorem dk_l0 (i : S5000x128.Idx) (q : (DK).contr.Idx) : ((DK).lhsIdx i q 0).val = (i 0).val := by
  unfold DotDims.lhsIdx
  rw [dif_neg (show ¬(0 : Fin S5000x128.rank) ∈ (DK).lhsBatch by decide), dif_pos (show (0 : Fin S5000x128.rank) ∈ (DK).lhsNonContracting by decide)]
  rfl
theorem dk_l1 (i : S5000x128.Idx) (q : (DK).contr.Idx) : ((DK).lhsIdx i q 1).val = (q ⟨0, by decide⟩).val :=
  (DK).lhsIdx_val_of_single rfl i q
theorem dk_r0 (i : S5000x128.Idx) (q : (DK).contr.Idx) : ((DK).rhsIdx i q 0).val = (q ⟨0, by decide⟩).val :=
  (DK).rhsIdx_val_of_single rfl i q
theorem dk_r1 (i : S5000x128.Idx) (q : (DK).contr.Idx) : ((DK).rhsIdx i q 1).val = (i 1).val := by
  unfold DotDims.rhsIdx
  rw [dif_neg (show ¬(1 : Fin S128x128.rank) ∈ (DK).rhsBatch by decide), dif_pos (show (1 : Fin S128x128.rank) ∈ (DK).rhsNonContracting by decide)]
  rfl

/-- Entry `(p, q)` of a block times the weight, accumulated from zero. -/
theorem product_entry (x : FVec Ideal S5000x128 .f32) (w : FVec Ideal S128x128 .f32) (p : Fin 5000) (q : Fin 128) :
    matmul (F := Ideal) DK none x w (constant (F := Ideal) S5000x128 .f32 0x00000000#32) (ix2 p q)
      = ∑ k : Fin 128, x (ix2 p k) * w (ix2 k q) :=
  Cert.PlainProduct.matmul_zero_entry DK rfl rfl dk_l0 dk_l1 dk_r0 dk_r1 x w p q

/-- The bias row repeated down the block's rows, at an entry. -/
theorem bias_entry (b : FVec Ideal S1x128 .f32) (h : S1x128.Broadcasts S5000x128) (p : Fin 5000) (q : Fin 128) :
    broadcastTo S5000x128 b h (ix2 p q) = b (ix2 (0 : Fin 1) q) :=
  broadcastTo_1b_ab_apply b h p q

theorem origin : (![0, 0] : Fin 2 → Nat) = fun _ => 0 := funext fun a => by fin_cases a <;> rfl

end Cert.KernelIdeal.BlockProduct

end
-- ==== Proof.CombineRelu.lean ====
/-
  The first layer: the kernel's first region computes `max((x + agg) · w + b, 0)` over the 50000 node rows.

  The kernel tiles the 50000 node rows into ten blocks of 5000 rows. At a grid point it loads the block of the node features `x`, the same block of
  the neighbour sums `agg`, the whole weight and the whole bias row, and stores `max((x_block + agg_block) · w + b, 0)`: entry `(p, q)` is
  `max(∑ k, (x[p, k] + agg[p, k]) · w[k, q] + b[0, q], 0)`. Row `p` of block `t` is row `5000 · t + p` of the array, and the ten blocks cover
  every row once, so the output array is the host's first layer of the arrays the region was entered with.
-/
import proofs.«124323_j44744969290501_1_alg».proof.Proof.Gen.KernelIdeal.Frame
import proofs.«124323_j44744969290501_1_alg».proof.Proof.Layers
import proofs.«124323_j44744969290501_1_alg».proof.Proof.BlockProduct
import Idealize.ShloMosaic.Lib.Pipeline.Value
import Idealize.ShloMosaic.Lib.ValueIdx

set_option maxRecDepth 16384

noncomputable section

namespace Cert.KernelIdeal.CombineRelu

open Idealize.ShloMosaic Idealize.ShloMosaic.TcCoe Idealize.ShloMosaic.ValueIdx Idealize.SL.Sem Cert.KernelIdeal Cert.KernelIdeal.Gen
open Cert.KernelIdeal.BlockProduct
open Idealize.ShloMosaic.Pipeline (Dat)

/-! ## The stored block at an entry -/

/-- Entry `(p, q)` of the block the body stores, from the blocks it loads. -/
theorem stored_entry (x : Vec Ideal S5000x128 .f32) (a : Vec Ideal S5000x128 .f32) (w : Vec Ideal S128x128 .f32)
    (b : Vec Ideal S1x128 .f32) (p : Fin 5000) (q : Fin 128) :
    k0_pay1 (F := Ideal) x a w b (ix2 p q)
      = max ((∑ k : Fin 128, (x (ix2 p k) + a (ix2 p k)) * w (ix2 k q)) + b (ix2 (0 : Fin 1) q)) (Ideal.ofBits .f32 0x00000000#32) := by
  unfold k0_pay1
  rw [maximumf_apply, broadcast_apply, addf_apply, shapeCast_self, shapeCast_self, product_entry, bias_entry]
  rfl

/-! ## From the blocks to the array -/

/-- The printed index maps over the 10 grid points: the row blocks move together with the output block down the rows, the
    weight and the bias stay at their one block. -/
theorem block_indices : ∀ t : Fin cfg0.N, win0_0.index t (0 : Fin 2) = win0_4.index t (0 : Fin 2)
    ∧ win0_0.index t (1 : Fin 2) = 0
    ∧ win0_1.index t (0 : Fin 2) = win0_4.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (1 : Fin 2) = 0
    ∧ win0_4.index t (0 : Fin 2) ≤ 9 :=
  (by decide +kernel : ∀ t : Fin grid0.N, _)

/-- Every one of the 10 row blocks is some grid point's. -/
theorem block_onto : ∀ q0 : Fin 10, ∃ t : Fin cfg0.N, win0_4.index t = ![q0.val, 0] :=
  (by decide +kernel : ∀ q0 : Fin 10, ∃ t : Fin grid0.N, win0_4.index t = ![q0.val, 0])

variable (V : (c : Dev nD) → (b : Ref sig .tc) → Buf (Elt Ideal) ((c : Thread nD τ).loc b))

/-- What grid point `t` writes back is block `t` of the layer applied to the arrays the region was entered with. -/
theorem written_back (c : Dev nD) (t : Fin cfg0.N) :
    (dat0 (F := Ideal) V c).flushed 4 t = ((cfg0.win 4).blk t).view.read (Elt Ideal)
      (Cert.Layers.relu50 (Cert.Layers.linear50 (addf (V c main_arg0 : FVec Ideal Cert.ReferenceIdeal.S50000x128 .f32) (V c main_v13)) (V c main_arg1) (V c main_v14))) := by
  show (cfg0.win 4).cut (grid0.coords t) ((dat0 V c).after 4 t) = _
  rw [after0_4]
  unfold out0_4
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 50000 := ⟨win0_4.index t (0 : Fin 2) * 5000 + p.val, by omega⟩
  show k0_pay1 (F := Ideal) (iblk0 V c 0 t) (iblk0 V c 1 t) (iblk0 V c 2 t) (iblk0 V c 3 t) (ix2 p q)
    = (Cert.Layers.relu50 (Cert.Layers.linear50 (addf (V c main_arg0 : FVec Ideal Cert.ReferenceIdeal.S50000x128 .f32) (V c main_v13)) (V c main_arg1) (V c main_v14))) (((cfg0.win 4).blk t).view.emb (ix2 p q))
  have hout : ((cfg0.win 4).blk t).view.emb (ix2 p q) = ix2 P q := by
    funext a; apply Fin.ext
    match a with
    | ⟨0, _⟩ => show win0_4.index t (0 : Fin 2) * 5000 + 1 * p.val = win0_4.index t (0 : Fin 2) * 5000 + p.val; omega
    | ⟨1, _⟩ => show win0_4.index t (1 : Fin 2) * 128 + 1 * q.val = q.val; omega
  rw [hout, Cert.Layers.relu50_entry, Cert.Layers.linear50_entry]
  simp only [addf_apply]
  refine (stored_entry (iblk0 V c 0 t) (iblk0 V c 1 t) (iblk0 V c 2 t) (iblk0 V c 3 t) p q).trans ?_
  refine congrArg (fun z => max z _) (congrArg₂ (· + ·) (Finset.sum_congr rfl fun k _ => congrArg₂ (· * ·) (congrArg₂ (· + ·) ?_ ?_) ?_) ?_)
  · show V c main_arg0 (((cfg0.win 0).blk t).view.emb (ix2 p k)) = V c main_arg0 (ix2 P k)
    refine congrArg _ ?_
    funext a; apply Fin.ext
    have hc : k.val < 128 := k.isLt
    match a with
    | ⟨0, _⟩ => show win0_0.index t (0 : Fin 2) * 5000 + 1 * p.val = win0_4.index t (0 : Fin 2) * 5000 + p.val; omega
    | ⟨1, _⟩ => show win0_0.index t (1 : Fin 2) * 128 + 1 * k.val = k.val; omega
  · show V c main_v13 (((cfg0.win 1).blk t).view.emb (ix2 p k)) = V c main_v13 (ix2 P k)
    refine congrArg _ ?_
    funext a; apply Fin.ext
    have hc : k.val < 128 := k.isLt
    match a with
    | ⟨0, _⟩ => show win0_1.index t (0 : Fin 2) * 5000 + 1 * p.val = win0_4.index t (0 : Fin 2) * 5000 + p.val; omega
    | ⟨1, _⟩ => show win0_1.index t (1 : Fin 2) * 128 + 1 * k.val = k.val; omega
  · show V c main_arg1 (((cfg0.win 2).blk t).view.emb (ix2 k q)) = V c main_arg1 (ix2 k q)
    refine congrArg _ ?_
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  · show V c main_v14 (((cfg0.win 3).blk t).view.emb (ix2 (0 : Fin 1) q)) = V c main_v14 (ix2 (0 : Fin 1) q)
    refine congrArg _ ?_
    funext a; apply Fin.ext
    match a with
    | ⟨0, _⟩ => show win0_3.index t (0 : Fin 2) * 1 + 1 * 0 = 0; omega
    | ⟨1, _⟩ => show win0_3.index t (1 : Fin 2) * 128 + 1 * q.val = q.val; omega

/-- An index of the output array is in grid point `t`'s block iff each coordinate is in the block's range on its axis. -/
theorem in_block (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v15).slice (win0_4.rect t)).set ↔ _
  rw [View.set_slice_whole, Rect.mem_set_unit]
  exact Iff.rfl

/-- Every entry of the output array is written back by the grid point of its row block. -/
theorem covered (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := block_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [in_block]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The output array after the region: the layer applied to the arrays the region was entered with. -/
theorem array (c : Dev nD) :
    (dat0 (F := Ideal) V c).arrAt 4 cfg0.N = Cert.Layers.relu50 (Cert.Layers.linear50 (addf (V c main_arg0 : FVec Ideal Cert.ReferenceIdeal.S50000x128 .f32) (V c main_v13)) (V c main_arg1) (V c main_v14)) :=
  (dat0 V c).arrAt_eq_of_cover 4 _ (fun t _ => written_back V c t) covered

end Cert.KernelIdeal.CombineRelu

end
-- ==== Proof.SubLinear0.lean ====
/-
  Level 0, nodes to substructures: the kernel's second region computes the linear layer `x · w + b` over the 20000 substructure rows.

  The kernel tiles the 20000 substructure rows into four blocks of 5000 rows. At a grid point it loads the block of `x`, the whole
  weight and the whole bias row, and stores `x_block · w + b`: entry `(p, q)` of the stored block is
  `∑ k, x_block[p, k] · w[k, q] + b[0, q]`. Row `p` of block `t` is row `5000 · t + p` of the array, and the four blocks cover every
  row once, so the array the blocks are written back to is the linear layer of the arrays the region was entered with.
-/
import proofs.«124323_j44744969290501_1_alg».proof.Proof.Gen.KernelIdeal.Frame
import proofs.«124323_j44744969290501_1_alg».proof.Proof.Layers
import proofs.«124323_j44744969290501_1_alg».proof.Proof.BlockProduct
import Idealize.ShloMosaic.Lib.Pipeline.Value
import Idealize.ShloMosaic.Lib.ValueIdx

set_option maxRecDepth 16384

noncomputable section

namespace Cert.KernelIdeal.SubLinear0

open Idealize.ShloMosaic Idealize.ShloMosaic.TcCoe Idealize.ShloMosaic.ValueIdx Idealize.SL.Sem Cert.KernelIdeal Cert.KernelIdeal.Gen
open Cert.KernelIdeal.BlockProduct
open Idealize.ShloMosaic.Pipeline (Dat)

/-! ## The stored block at an entry -/

/-- Entry `(p, q)` of the block the body stores, from the blocks it loads. -/
theorem stored_entry (x : Vec Ideal S5000x128 .f32) (w : Vec Ideal S128x128 .f32) (b : Vec Ideal S1x128 .f32)
    (p : Fin 5000) (q : Fin 128) :
    k1_pay1 (F := Ideal) x w b (ix2 p q) = (∑ k : Fin 128, x (ix2 p k) * w (ix2 k q)) + b (ix2 (0 : Fin 1) q) := by
  unfold k1_pay1
  rw [addf_apply, shapeCast_self, shapeCast_self, product_entry, bias_entry]

/-! ## From the blocks to the array -/

/-- The printed index maps over the 4 grid points: the row blocks move together with the output block down the rows, the
    weight and the bias stay at their one block. -/
theorem block_indices : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 3 :=
  (by decide +kernel : ∀ t : Fin grid1.N, _)

/-- Every one of the 4 row blocks is some grid point's. -/
theorem block_onto : ∀ q0 : Fin 4, ∃ t : Fin cfg1.N, win1_3.index t = ![q0.val, 0] :=
  (by decide +kernel : ∀ q0 : Fin 4, ∃ t : Fin grid1.N, win1_3.index t = ![q0.val, 0])

variable (V : (c : Dev nD) → (b : Ref sig .tc) → Buf (Elt Ideal) ((c : Thread nD τ).loc b))

/-- What grid point `t` writes back is block `t` of the layer applied to the arrays the region was entered with. -/
theorem written_back (c : Dev nD) (t : Fin cfg1.N) :
    (dat1 (F := Ideal) V c).flushed 3 t = ((cfg1.win 3).blk t).view.read (Elt Ideal)
      (Cert.Layers.linear20 (V c main_v25) (V c main_arg3) (V c main_v26)) := by
  show (cfg1.win 3).cut (grid1.coords t) ((dat1 V c).after 3 t) = _
  rw [after1_3]
  unfold out1_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 20000 := ⟨win1_3.index t (0 : Fin 2) * 5000 + p.val, by omega⟩
  show k1_pay1 (F := Ideal) (iblk1 V c 0 t) (iblk1 V c 1 t) (iblk1 V c 2 t) (ix2 p q)
    = (Cert.Layers.linear20 (V c main_v25) (V c main_arg3) (V c main_v26)) (((cfg1.win 3).blk t).view.emb (ix2 p q))
  have hout : ((cfg1.win 3).blk t).view.emb (ix2 p q) = ix2 P q := by
    funext a; apply Fin.ext
    match a with
    | ⟨0, _⟩ => show win1_3.index t (0 : Fin 2) * 5000 + 1 * p.val = win1_3.index t (0 : Fin 2) * 5000 + p.val; omega
    | ⟨1, _⟩ => show win1_3.index t (1 : Fin 2) * 128 + 1 * q.val = q.val; omega
  rw [hout, Cert.Layers.linear20_entry]
  refine (stored_entry (iblk1 V c 0 t) (iblk1 V c 1 t) (iblk1 V c 2 t) p q).trans ?_
  refine congrArg₂ (· + ·) (Finset.sum_congr rfl fun k _ => congrArg₂ (· * ·) ?_ ?_) ?_
  · show V c main_v25 (((cfg1.win 0).blk t).view.emb (ix2 p k)) = V c main_v25 (ix2 P k)
    refine congrArg _ ?_
    funext a; apply Fin.ext
    have hc : k.val < 128 := k.isLt
    match a with
    | ⟨0, _⟩ => show win1_0.index t (0 : Fin 2) * 5000 + 1 * p.val = win1_3.index t (0 : Fin 2) * 5000 + p.val; omega
    | ⟨1, _⟩ => show win1_0.index t (1 : Fin 2) * 128 + 1 * k.val = k.val; omega
  · show V c main_arg3 (((cfg1.win 1).blk t).view.emb (ix2 k q)) = V c main_arg3 (ix2 k q)
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  · show V c main_v26 (((cfg1.win 2).blk t).view.emb (ix2 (0 : Fin 1) q)) = V c main_v26 (ix2 (0 : Fin 1) q)
    refine congrArg _ ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega

/-- An index of the output array is in grid point `t`'s block iff each coordinate is in the block's range on its axis. -/
theorem in_block (t : Fin cfg1.N) (i : S20000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v27).slice (win1_3.rect t)).set ↔ _
  rw [View.set_slice_whole, Rect.mem_set_unit]
  exact Iff.rfl

/-- Every entry of the output array is written back by the grid point of its row block. -/
theorem covered (i : S20000x128.Idx) :
    ∃ t : Fin cfg1.N, (cfg1.win 3).flush t = true ∧ i ∈ ((cfg1.win 3).blk t).view.set := by
  have hi0 : (i 0).val < 20000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [in_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: the layer applied to the arrays the region was entered with. -/
theorem array (c : Dev nD) :
    (dat1 (F := Ideal) V c).arrAt 3 cfg1.N = Cert.Layers.linear20 (V c main_v25) (V c main_arg3) (V c main_v26) :=
  (dat1 V c).arrAt_eq_of_cover 3 _ (fun t _ => written_back V c t) covered

end Cert.KernelIdeal.SubLinear0

end
-- ==== Proof.NodeResidual0.lean ====
/-
  Level 0, substructures back to nodes: the kernel's third region computes `r + x · w + b` over the 50000 node rows.

  The kernel tiles the 50000 node rows into ten blocks of 5000 rows. At a grid point it loads the block of the aggregated messages `x`, the
  whole weight, the whole bias row and the same block of the incoming node features `r`, and stores `(r_block + x_block · w) + b`. The host
  groups the same sum as `r + (x · w + b)`; addition of extended reals is associative, so entry by entry the two agree. Row `p` of block
  `t` is row `5000 · t + p` of the array, and the ten blocks cover every row once.
-/
import proofs.«124323_j44744969290501_1_alg».proof.Proof.Gen.KernelIdeal.Frame
import proofs.«124323_j44744969290501_1_alg».proof.Proof.Layers
import proofs.«124323_j44744969290501_1_alg».proof.Proof.BlockProduct
import Idealize.ShloMosaic.Lib.Pipeline.Value
import Idealize.ShloMosaic.Lib.ValueIdx

set_option maxRecDepth 16384

noncomputable section

namespace Cert.KernelIdeal.NodeResidual0

open Idealize.ShloMosaic Idealize.ShloMosaic.TcCoe Idealize.ShloMosaic.ValueIdx Idealize.SL.Sem Cert.KernelIdeal Cert.KernelIdeal.Gen
open Cert.KernelIdeal.BlockProduct
open Idealize.ShloMosaic.Pipeline (Dat)

/-! ## The stored block at an entry -/

/-- Entry `(p, q)` of the block the body stores, from the blocks it loads. -/
theorem stored_entry (x : Vec Ideal S5000x128 .f32) (w : Vec Ideal S128x128 .f32) (r : Vec Ideal S5000x128 .f32)
    (b : Vec Ideal S1x128 .f32) (p : Fin 5000) (q : Fin 128) :
    k2_pay1 (F := Ideal) x w r b (ix2 p q)
      = (r (ix2 p q) + ∑ k : Fin 128, x (ix2 p k) * w (ix2 k q)) + b (ix2 (0 : Fin 1) q) := by
  unfold k2_pay1
  rw [addf_apply, addf_apply, shapeCast_self, shapeCast_self, shapeCast_self, product_entry, bias_entry]

/-! ## From the blocks to the array -/

/-- The printed index maps over the 10 grid points: the row blocks move together with the output block down the rows, the
    weight and the bias stay at their one block. -/
theorem block_indices : ∀ t : Fin cfg2.N, win2_0.index t (0 : Fin 2) = win2_4.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = win2_4.index t (0 : Fin 2)
    ∧ win2_3.index t (1 : Fin 2) = 0
    ∧ win2_4.index t (1 : Fin 2) = 0
    ∧ win2_4.index t (0 : Fin 2) ≤ 9 :=
  (by decide +kernel : ∀ t : Fin grid2.N, _)

/-- Every one of the 10 row blocks is some grid point's. -/
theorem block_onto : ∀ q0 : Fin 10, ∃ t : Fin cfg2.N, win2_4.index t = ![q0.val, 0] :=
  (by decide +kernel : ∀ q0 : Fin 10, ∃ t : Fin grid2.N, win2_4.index t = ![q0.val, 0])

variable (V : (c : Dev nD) → (b : Ref sig .tc) → Buf (Elt Ideal) ((c : Thread nD τ).loc b))

/-- What grid point `t` writes back is block `t` of the layer applied to the arrays the region was entered with. -/
theorem written_back (c : Dev nD) (t : Fin cfg2.N) :
    (dat2 (F := Ideal) V c).flushed 4 t = ((cfg2.win 4).blk t).view.read (Elt Ideal)
      (addf (V c main_v15 : FVec Ideal Cert.ReferenceIdeal.S50000x128 .f32) (Cert.Layers.linear50 (V c main_v37) (V c main_arg5) (V c main_v38))) := by
  show (cfg2.win 4).cut (grid2.coords t) ((dat2 V c).after 4 t) = _
  rw [after2_4]
  unfold out2_4
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 50000 := ⟨win2_4.index t (0 : Fin 2) * 5000 + p.val, by omega⟩
  show k2_pay1 (F := Ideal) (iblk2 V c 0 t) (iblk2 V c 1 t) (iblk2 V c 3 t) (iblk2 V c 2 t) (ix2 p q)
    = (addf (V c main_v15 : FVec Ideal Cert.ReferenceIdeal.S50000x128 .f32) (Cert.Layers.linear50 (V c main_v37) (V c main_arg5) (V c main_v38))) (((cfg2.win 4).blk t).view.emb (ix2 p q))
  have hout : ((cfg2.win 4).blk t).view.emb (ix2 p q) = ix2 P q := by
    funext a; apply Fin.ext
    match a with
    | ⟨0, _⟩ => show win2_4.index t (0 : Fin 2) * 5000 + 1 * p.val = win2_4.index t (0 : Fin 2) * 5000 + p.val; omega
    | ⟨1, _⟩ => show win2_4.index t (1 : Fin 2) * 128 + 1 * q.val = q.val; omega
  rw [hout, addf_apply, Cert.Layers.linear50_entry]
  refine (stored_entry (iblk2 V c 0 t) (iblk2 V c 1 t) (iblk2 V c 3 t) (iblk2 V c 2 t) p q).trans ?_
  refine (add_assoc _ _ _).trans ?_
  refine congrArg₂ (· + ·) ?_ (congrArg₂ (· + ·) (Finset.sum_congr rfl fun k _ => congrArg₂ (· * ·) ?_ ?_) ?_)
  · show V c main_v15 (((cfg2.win 3).blk t).view.emb (ix2 p q)) = V c main_v15 (ix2 P q)
    refine congrArg _ ?_
    funext a; apply Fin.ext
    have hc : q.val < 128 := q.isLt
    match a with
    | ⟨0, _⟩ => show win2_3.index t (0 : Fin 2) * 5000 + 1 * p.val = win2_4.index t (0 : Fin 2) * 5000 + p.val; omega
    | ⟨1, _⟩ => show win2_3.index t (1 : Fin 2) * 128 + 1 * q.val = q.val; omega
  · show V c main_v37 (((cfg2.win 0).blk t).view.emb (ix2 p k)) = V c main_v37 (ix2 P k)
    refine congrArg _ ?_
    funext a; apply Fin.ext
    have hc : k.val < 128 := k.isLt
    match a with
    | ⟨0, _⟩ => show win2_0.index t (0 : Fin 2) * 5000 + 1 * p.val = win2_4.index t (0 : Fin 2) * 5000 + p.val; omega
    | ⟨1, _⟩ => show win2_0.index t (1 : Fin 2) * 128 + 1 * k.val = k.val; omega
  · show V c main_arg5 (((cfg2.win 1).blk t).view.emb (ix2 k q)) = V c main_arg5 (ix2 k q)
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  · show V c main_v38 (((cfg2.win 2).blk t).view.emb (ix2 (0 : Fin 1) q)) = V c main_v38 (ix2 (0 : Fin 1) q)
    refine congrArg _ ?_
    funext a; apply Fin.ext
    match a with
    | ⟨0, _⟩ => show win2_2.index t (0 : Fin 2) * 1 + 1 * 0 = 0; omega
    | ⟨1, _⟩ => show win2_2.index t (1 : Fin 2) * 128 + 1 * q.val = q.val; omega

/-- An index of the output array is in grid point `t`'s block iff each coordinate is in the block's range on its axis. -/
theorem in_block (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v39).slice (win2_4.rect t)).set ↔ _
  rw [View.set_slice_whole, Rect.mem_set_unit]
  exact Iff.rfl

/-- Every entry of the output array is written back by the grid point of its row block. -/
theorem covered (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := block_onto ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [in_block]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The output array after the region: the layer applied to the arrays the region was entered with. -/
theorem array (c : Dev nD) :
    (dat2 (F := Ideal) V c).arrAt 4 cfg2.N = addf (V c main_v15 : FVec Ideal Cert.ReferenceIdeal.S50000x128 .f32) (Cert.Layers.linear50 (V c main_v37) (V c main_arg5) (V c main_v38)) :=
  (dat2 V c).arrAt_eq_of_cover 4 _ (fun t _ => written_back V c t) covered

end Cert.KernelIdeal.NodeResidual0

end
-- ==== Proof.SubLinear1.lean ====
/-
  Level 1, nodes to substructures: the kernel's fourth region computes the linear layer `x · w + b` over the 20000 substructure rows.

  The kernel tiles the 20000 substructure rows into four blocks of 5000 rows. At a grid point it loads the block of `x`, the whole
  weight and the whole bias row, and stores `x_block · w + b`: entry `(p, q)` of the stored block is
  `∑ k, x_block[p, k] · w[k, q] + b[0, q]`. Row `p` of block `t` is row `5000 · t + p` of the array, and the four blocks cover every
  row once, so the array the blocks are written back to is the linear layer of the arrays the region was entered with.
-/
import proofs.«124323_j44744969290501_1_alg».proof.Proof.Gen.KernelIdeal.Frame
import proofs.«124323_j44744969290501_1_alg».proof.Proof.Layers
import proofs.«124323_j44744969290501_1_alg».proof.Proof.BlockProduct
import Idealize.ShloMosaic.Lib.Pipeline.Value
import Idealize.ShloMosaic.Lib.ValueIdx

set_option maxRecDepth 16384

noncomputable section

namespace Cert.KernelIdeal.SubLinear1

open Idealize.ShloMosaic Idealize.ShloMosaic.TcCoe Idealize.ShloMosaic.ValueIdx Idealize.SL.Sem Cert.KernelIdeal Cert.KernelIdeal.Gen
open Cert.KernelIdeal.BlockProduct
open Idealize.ShloMosaic.Pipeline (Dat)

/-! ## The stored block at an entry -/

/-- Entry `(p, q)` of the block the body stores, from the blocks it loads. -/
theorem stored_entry (x : Vec Ideal S5000x128 .f32) (w : Vec Ideal S128x128 .f32) (b : Vec Ideal S1x128 .f32)
    (p : Fin 5000) (q : Fin 128) :
    k3_pay1 (F := Ideal) x w b (ix2 p q) = (∑ k : Fin 128, x (ix2 p k) * w (ix2 k q)) + b (ix2 (0 : Fin 1) q) := by
  unfold k3_pay1
  rw [addf_apply, shapeCast_self, shapeCast_self, product_entry, bias_entry]

/-! ## From the blocks to the array -/

/-- The printed index maps over the 4 grid points: the row blocks move together with the output block down the rows, the
    weight and the bias stay at their one block. -/
theorem block_indices : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 3 :=
  (by decide +kernel : ∀ t : Fin grid3.N, _)

/-- Every one of the 4 row blocks is some grid point's. -/
theorem block_onto : ∀ q0 : Fin 4, ∃ t : Fin cfg3.N, win3_3.index t = ![q0.val, 0] :=
  (by decide +kernel : ∀ q0 : Fin 4, ∃ t : Fin grid3.N, win3_3.index t = ![q0.val, 0])

variable (V : (c : Dev nD) → (b : Ref sig .tc) → Buf (Elt Ideal) ((c : Thread nD τ).loc b))

/-- What grid point `t` writes back is block `t` of the layer applied to the arrays the region was entered with. -/
theorem written_back (c : Dev nD) (t : Fin cfg3.N) :
    (dat3 (F := Ideal) V c).flushed 3 t = ((cfg3.win 3).blk t).view.read (Elt Ideal)
      (Cert.Layers.linear20 (V c main_v49) (V c main_arg7) (V c main_v50)) := by
  show (cfg3.win 3).cut (grid3.coords t) ((dat3 V c).after 3 t) = _
  rw [after3_3]
  unfold out3_3
  rw [View.canon_unit_zero origin]
  simp only [View.ld_unit_zero (S := S5000x128) origin, View.ld_unit_zero (S := S128x128) origin, View.ld_unit_zero (S := S1x128) origin]
  obtain ⟨e0, e1, e2, e3, e4, e5, e6, e7⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 20000 := ⟨win3_3.index t (0 : Fin 2) * 5000 + p.val, by omega⟩
  show k3_pay1 (F := Ideal) (iblk3 V c 0 t) (iblk3 V c 1 t) (iblk3 V c 2 t) (ix2 p q)
    = (Cert.Layers.linear20 (V c main_v49) (V c main_arg7) (V c main_v50)) (((cfg3.win 3).blk t).view.emb (ix2 p q))
  have hout : ((cfg3.win 3).blk t).view.emb (ix2 p q) = ix2 P q := by
    funext a; apply Fin.ext
    match a with
    | ⟨0, _⟩ => show win3_3.index t (0 : Fin 2) * 5000 + 1 * p.val = win3_3.index t (0 : Fin 2) * 5000 + p.val; omega
    | ⟨1, _⟩ => show win3_3.index t (1 : Fin 2) * 128 + 1 * q.val = q.val; omega
  rw [hout, Cert.Layers.linear20_entry]
  refine (stored_entry (iblk3 V c 0 t) (iblk3 V c 1 t) (iblk3 V c 2 t) p q).trans ?_
  refine congrArg₂ (· + ·) (Finset.sum_congr rfl fun k _ => congrArg₂ (· * ·) ?_ ?_) ?_
  · show V c main_v49 (((cfg3.win 0).blk t).view.emb (ix2 p k)) = V c main_v49 (ix2 P k)
    refine congrArg _ ?_
    funext a; apply Fin.ext
    have hc : k.val < 128 := k.isLt
    match a with
    | ⟨0, _⟩ => show win3_0.index t (0 : Fin 2) * 5000 + 1 * p.val = win3_3.index t (0 : Fin 2) * 5000 + p.val; omega
    | ⟨1, _⟩ => show win3_0.index t (1 : Fin 2) * 128 + 1 * k.val = k.val; omega
  · show V c main_arg7 (((cfg3.win 1).blk t).view.emb (ix2 k q)) = V c main_arg7 (ix2 k q)
    refine congrArg _ ?_
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  · show V c main_v50 (((cfg3.win 2).blk t).view.emb (ix2 (0 : Fin 1) q)) = V c main_v50 (ix2 (0 : Fin 1) q)
    refine congrArg _ ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega

/-- An index of the output array is in grid point `t`'s block iff each coordinate is in the block's range on its axis. -/
theorem in_block (t : Fin cfg3.N) (i : S20000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v51).slice (win3_3.rect t)).set ↔ _
  rw [View.set_slice_whole, Rect.mem_set_unit]
  exact Iff.rfl

/-- Every entry of the output array is written back by the grid point of its row block. -/
theorem covered (i : S20000x128.Idx) :
    ∃ t : Fin cfg3.N, (cfg3.win 3).flush t = true ∧ i ∈ ((cfg3.win 3).blk t).view.set := by
  have hi0 : (i 0).val < 20000 := (i 0).isLt
  have hi1 : (i 1).val < 128 := (i 1).isLt
  obtain ⟨t, ht⟩ := block_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [in_block]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region: the layer applied to the arrays the region was entered with. -/
theorem array (c : Dev nD) :
    (dat3 (F := Ideal) V c).arrAt 3 cfg3.N = Cert.Layers.linear20 (V c main_v49) (V c main_arg7) (V c main_v50) :=
  (dat3 V c).arrAt_eq_of_cover 3 _ (fun t _ => written_back V c t) covered

end Cert.KernelIdeal.SubLinear1

end
-- ==== Proof.NodeResidual1.lean ====
/-
  Level 1, substructures back to nodes: the kernel's fifth region computes `r + x · w + b` over the 50000 node rows.

  The kernel tiles the 50000 node rows into ten blocks of 5000 rows. At a grid point it loads the block of the aggregated messages `x`, the
  whole weight, the whole bias row and the same block of the incoming node features `r`, and stores `(r_block + x_block · w) + b`. The host
  groups the same sum as `r + (x · w + b)`; addition of extended reals is associative, so entry by entry the two agree. Row `p` of block
  `t` is row `5000 · t + p` of the array, and the ten blocks cover every row once.
-/
import proofs.«124323_j44744969290501_1_alg».proof.Proof.Gen.KernelIdeal.Frame
import proofs.«124323_j44744969290501_1_alg».proof.Proof.Layers
import proofs.«124323_j44744969290501_1_alg».proof.Proof.BlockProduct
import Idealize.ShloMosaic.Lib.Pipeline.Value
import Idealize.ShloMosaic.Lib.ValueIdx

set_option maxRecDepth 16384

noncomputable section

namespace Cert.KernelIdeal.NodeResidual1

open Idealize.ShloMosaic Idealize.ShloMosaic.TcCoe Idealize.ShloMosaic.ValueIdx Idealize.SL.Sem Cert.KernelIdeal Cert.KernelIdeal.Gen
open Cert.KernelIdeal.BlockProduct
open Idealize.ShloMosaic.Pipeline (Dat)

/-! ## The stored block at an entry -/

/-- Entry `(p, q)` of the block the body stores, from the blocks it loads. -/
theorem stored_entry (x : Vec Ideal S5000x128 .f32) (w : Vec Ideal S128x128 .f32) (r : Vec Ideal S5000x128 .f32)
    (b : Vec Ideal S1x128 .f32) (p : Fin 5000) (q : Fin 128) :
    k4_pay1 (F := Ideal) x w r b (ix2 p q)
      = (r (ix2 p q) + ∑ k : Fin 128, x (ix2 p k) * w (ix2 k q)) + b (ix2 (0 : Fin 1) q) := by
  unfold k4_pay1
  rw [addf_apply, addf_apply, shapeCast_self, shapeCast_self, shapeCast_self, product_entry, bias_entry]

/-! ## From the blocks to the array -/

/-- The printed index maps over the 10 grid points: the row blocks move together with the output block down the rows, the
    weight and the bias stay at their one block. -/
theorem block_indices : ∀ t : Fin cfg4.N, win4_0.index t (0 : Fin 2) = win4_4.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = win4_4.index t (0 : Fin 2)
    ∧ win4_3.index t (1 : Fin 2) = 0
    ∧ win4_4.index t (1 : Fin 2) = 0
    ∧ win4_4.index t (0 : Fin 2) ≤ 9 :=
  (by decide +kernel : ∀ t : Fin grid4.N, _)

/-- Every one of the 10 row blocks is some grid point's. -/
theorem block_onto : ∀ q0 : Fin 10, ∃ t : Fin cfg4.N, win4_4.index t = ![q0.val, 0] :=
  (by decide +kernel : ∀ q0 : Fin 10, ∃ t : Fin grid4.N, win4_4.index t = ![q0.val, 0])

variable (V : (c : Dev nD) → (b : Ref sig .tc) → Buf (Elt Ideal) ((c : Thread nD τ).loc b))

/-- What grid point `t` writes back is block `t` of the layer applied to the arrays the region was entered with. -/
theorem written_back (c : Dev nD) (t : Fin cfg4.N) :
    (dat4 (F := Ideal) V c).flushed 4 t = ((cfg4.win 4).blk t).view.read (Elt Ideal)
      (addf (V c main_v39 : FVec Ideal Cert.ReferenceIdeal.S50000x128 .f32) (Cert.Layers.linear50 (V c main_v61) (V c main_arg9) (V c main_v62))) := by
  show (cfg4.win 4).cut (grid4.coords t) ((dat4 V c).after 4 t) = _
  rw [after4_4]
  unfold out4_4
  rw [View.canon_unit_zero origin]
  simp only [View.ld_unit_zero (S := S5000x128) origin, View.ld_unit_zero (S := S128x128) origin, View.ld_unit_zero (S := S1x128) origin]
  obtain ⟨e0, e1, e2, e3, e4, e5, e6, e7, e8, e9⟩ := block_indices t
  funext j
  obtain ⟨p, q, rfl⟩ : ∃ (p : Fin 5000) (q : Fin 128), j = ix2 p q := ⟨j 0, j 1, eq_ix2 j⟩
  have hp : p.val < 5000 := p.isLt
  have hq : q.val < 128 := q.isLt
  let P : Fin 50000 := ⟨win4_4.index t (0 : Fin 2) * 5000 + p.val, by omega⟩
  show k4_pay1 (F := Ideal) (iblk4 V c 0 t) (iblk4 V c 1 t) (iblk4 V c 3 t) (iblk4 V c 2 t) (ix2 p q)
    = (addf (V c main_v39 : FVec Ideal Cert.ReferenceIdeal.S50000x128 .f32) (Cert.Layers.linear50 (V c main_v61) (V c main_arg9) (V c main_v62))) (((cfg4.win 4).blk t).view.emb (ix2 p q))
  have hout : ((cfg4.win 4).blk t).view.emb (ix2 p q) = ix2 P q := by
    funext a; apply Fin.ext
    match a with
    | ⟨0, _⟩ => show win4_4.index t (0 : Fin 2) * 5000 + 1 * p.val = win4_4.index t (0 : Fin 2) * 5000 + p.val; omega
    | ⟨1, _⟩ => show win4_4.index t (1 : Fin 2) * 128 + 1 * q.val = q.val; omega
  rw [hout, addf_apply, Cert.Layers.linear50_entry]
  refine (stored_entry (iblk4 V c 0 t) (iblk4 V c 1 t) (iblk4 V c 3 t) (iblk4 V c 2 t) p q).trans ?_
  refine (add_assoc _ _ _).trans ?_
  refine congrArg₂ (· + ·) ?_ (congrArg₂ (· + ·) (Finset.sum_congr rfl fun k _ => congrArg₂ (· * ·) ?_ ?_) ?_)
  · show V c main_v39 (((cfg4.win 3).blk t).view.emb (ix2 p q)) = V c main_v39 (ix2 P q)
    refine congrArg _ ?_
    funext a; apply Fin.ext
    have hc : q.val < 128 := q.isLt
    match a with
    | ⟨0, _⟩ => show win4_3.index t (0 : Fin 2) * 5000 + 1 * p.val = win4_4.index t (0 : Fin 2) * 5000 + p.val; omega
    | ⟨1, _⟩ => show win4_3.index t (1 : Fin 2) * 128 + 1 * q.val = q.val; omega
  · show V c main_v61 (((cfg4.win 0).blk t).view.emb (ix2 p k)) = V c main_v61 (ix2 P k)
    refine congrArg _ ?_
    funext a; apply Fin.ext
    have hc : k.val < 128 := k.isLt
    match a with
    | ⟨0, _⟩ => show win4_0.index t (0 : Fin 2) * 5000 + 1 * p.val = win4_4.index t (0 : Fin 2) * 5000 + p.val; omega
    | ⟨1, _⟩ => show win4_0.index t (1 : Fin 2) * 128 + 1 * k.val = k.val; omega
  · show V c main_arg9 (((cfg4.win 1).blk t).view.emb (ix2 k q)) = V c main_arg9 (ix2 k q)
    refine congrArg _ ?_
    funext a; apply Fin.ext
    match a with
    | ⟨0, _⟩ => show win4_1.index t (0 : Fin 2) * 128 + 1 * k.val = k.val; omega
    | ⟨1, _⟩ => show win4_1.index t (1 : Fin 2) * 128 + 1 * q.val = q.val; omega
  · show V c main_v62 (((cfg4.win 2).blk t).view.emb (ix2 (0 : Fin 1) q)) = V c main_v62 (ix2 (0 : Fin 1) q)
    refine congrArg _ ?_
    funext a; apply Fin.ext
    match a with
    | ⟨0, _⟩ => show win4_2.index t (0 : Fin 2) * 1 + 1 * 0 = 0; omega
    | ⟨1, _⟩ => show win4_2.index t (1 : Fin 2) * 128 + 1 * q.val = q.val; omega

/-- An index of the output array is in grid point `t`'s block iff each coordinate is in the block's range on its axis. -/
theorem in_block (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v63).slice (win4_4.rect t)).set ↔ _
  rw [View.set_slice_whole, Rect.mem_set_unit]
  exact Iff.rfl

/-- Every entry of the output array is written back by the grid point of its row block. -/
theorem covered (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  obtain ⟨t, ht⟩ := block_onto ⟨(i 0).val / 5000, by omega⟩
  have q0 : win4_4.index t (0 : Fin 2) = (i 0).val / 5000 := congrFun ht 0
  have q1 : win4_4.index t (1 : Fin 2) = 0 := congrFun ht 1
  refine ⟨t, flush4_4 t, ?_⟩
  rw [in_block]
  intro a
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The output array after the region: the layer applied to the arrays the region was entered with. -/
theorem array (c : Dev nD) :
    (dat4 (F := Ideal) V c).arrAt 4 cfg4.N = addf (V c main_v39 : FVec Ideal Cert.ReferenceIdeal.S50000x128 .f32) (Cert.Layers.linear50 (V c main_v61) (V c main_arg9) (V c main_v62)) :=
  (dat4 V c).arrAt_eq_of_cover 4 _ (fun t _ => written_back V c t) covered

end Cert.KernelIdeal.NodeResidual1

end
-- ==== Proof.Boundaries.lean ====
/-
  The buffers at the boundaries between the program's segments, read back to the launch arguments.

  The program alternates stretches of host operations with kernel regions. Following the contents of the buffers from the launch
  through each boundary: a region's entry arrays are either argument arrays, still as launched, or results of the host stretch just
  before it — an aggregation of the previous region's output, or a bias vector reshaped to one row — and the region's output array is
  the corresponding layer of those. So the five regions' outputs are, in order, the first layer `x₁`, the substructure features of
  level 0, the node features `x₂` after level 0, the substructure features of level 1, and the network's result `x₃`.
-/
import proofs.«124323_j44744969290501_1_alg».proof.Proof.Kept
import proofs.«124323_j44744969290501_1_alg».proof.Proof.Network
import proofs.«124323_j44744969290501_1_alg».proof.Proof.CombineRelu
import proofs.«124323_j44744969290501_1_alg».proof.Proof.SubLinear0
import proofs.«124323_j44744969290501_1_alg».proof.Proof.NodeResidual0
import proofs.«124323_j44744969290501_1_alg».proof.Proof.SubLinear1
import proofs.«124323_j44744969290501_1_alg».proof.Proof.NodeResidual1
import Idealize.ShloMosaic.Lib.StableHlo.Run

set_option maxRecDepth 16384

noncomputable section

namespace Cert.KernelIdeal.Boundaries

open Idealize.ShloMosaic Idealize.ShloMosaic.TcCoe Idealize.SL.Sem Idealize.ShloMosaic.StableHlo
open Cert.KernelIdeal Cert.KernelIdeal.Gen Cert.KernelIdeal.Kept Cert.Network Cert.Layers

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-- The first layer's output. -/
def x1 (c : Dev nD) : Feat50 := combine (arg m c main_arg0) (arg m c main_arg11) (arg m c main_arg1) (arg m c main_arg2)
/-- The substructure features of level 0. -/
def s1 (c : Dev nD) : Feat20 := subFeatures (x1 m c) (arg m c main_arg12) (arg m c main_arg13) (arg m c main_arg3) (arg m c main_arg4)
/-- The node features after level 0. -/
def x2 (c : Dev nD) : Feat50 := level (x1 m c) (arg m c main_arg12) (arg m c main_arg13) (arg m c main_arg3) (arg m c main_arg4) (arg m c main_arg5) (arg m c main_arg6)
/-- The substructure features of level 1. -/
def s2 (c : Dev nD) : Feat20 := subFeatures (x2 m c) (arg m c main_arg14) (arg m c main_arg15) (arg m c main_arg7) (arg m c main_arg8)
/-- The node features after level 1: the network's result. -/
def x3 (c : Dev nD) : Feat50 := level (x2 m c) (arg m c main_arg14) (arg m c main_arg15) (arg m c main_arg7) (arg m c main_arg8) (arg m c main_arg9) (arg m c main_arg10)

/-! ## The first region -/

theorem entry0_x (c : Dev nD) : V1 (F := Ideal) m ρ c main_arg0 = (arg m c main_arg0) := stretch0_main_arg0 m ρ c
theorem entry0_w (c : Dev nD) : V1 (F := Ideal) m ρ c main_arg1 = (arg m c main_arg1) := stretch0_main_arg1 m ρ c
theorem entry0_agg (c : Dev nD) : V1 (F := Ideal) m ρ c main_v13 = neighbours (arg m c main_arg0) (arg m c main_arg11) := by
  show StableHlo.after (hostOps0 (F := Ideal)) (W0 m ρ c) (Proc.devRef .tc main_v13) = _
  after_results_simp
  rfl
theorem entry0_b (c : Dev nD) : V1 (F := Ideal) m ρ c main_v14 = biasRow (arg m c main_arg2) := by
  have e : V1 (F := Ideal) m ρ c main_v14 = shapeCast S1x128 (arg m c main_arg2) shapeCasts_S128_S1x128 := by
    show StableHlo.after (hostOps0 (F := Ideal)) (W0 m ρ c) (Proc.devRef .tc main_v14) = _
    after_results
    rfl
  rw [e]
  exact reshape_eq_biasRow _ _

/-- The first region leaves the first layer's output in its output array. -/
theorem exit0 (c : Dev nD) : W2 (F := Ideal) m ρ c (Proc.devRef .tc main_v15) = x1 m c :=
  (W2_arr m ρ c 4).trans ((Cert.KernelIdeal.CombineRelu.array (V1 m ρ) c).trans (by
    rw [entry0_x m ρ c, entry0_agg m ρ c, entry0_w m ρ c, entry0_b m ρ c]; rfl))

theorem W2_main_arg3 (c : Dev nD) : W2 (F := Ideal) m ρ c (Proc.devRef .tc main_arg3) = arg m c main_arg3 :=
  (W2_of_ne m ρ c main_arg3 (by decide)).trans ((stretch0_main_arg3 m ρ c))
theorem W2_main_arg4 (c : Dev nD) : W2 (F := Ideal) m ρ c (Proc.devRef .tc main_arg4) = arg m c main_arg4 :=
  (W2_of_ne m ρ c main_arg4 (by decide)).trans ((stretch0_main_arg4 m ρ c))
theorem W2_main_arg12 (c : Dev nD) : W2 (F := Ideal) m ρ c (Proc.devRef .tc main_arg12) = arg m c main_arg12 :=
  (W2_of_ne m ρ c main_arg12 (by decide)).trans ((stretch0_main_arg12 m ρ c))
theorem W2_main_arg13 (c : Dev nD) : W2 (F := Ideal) m ρ c (Proc.devRef .tc main_arg13) = arg m c main_arg13 :=
  (W2_of_ne m ρ c main_arg13 (by decide)).trans ((stretch0_main_arg13 m ρ c))

/-! ## The second region -/

theorem entry1_x (c : Dev nD) : V3 (F := Ideal) m ρ c main_v25 = nodesToSubs (x1 m c) (arg m c main_arg12) (arg m c main_arg13) := by
  show StableHlo.after (hostOps1 (F := Ideal)) (W2 m ρ c) (Proc.devRef .tc main_v25) = _
  after_results_simp
  rw [exit0 m ρ c, W2_main_arg12 m ρ c, W2_main_arg13 m ρ c]
  rfl
theorem entry1_w (c : Dev nD) : V3 (F := Ideal) m ρ c main_arg3 = (arg m c main_arg3) := (stretch1_main_arg3 m ρ c).trans (W2_main_arg3 m ρ c)
theorem entry1_b (c : Dev nD) : V3 (F := Ideal) m ρ c main_v26 = biasRow (arg m c main_arg4) := by
  have e : V3 (F := Ideal) m ρ c main_v26 = shapeCast S1x128 (W2 (F := Ideal) m ρ c (Proc.devRef .tc main_arg4)) shapeCasts_S128_S1x128 := by
    show StableHlo.after (hostOps1 (F := Ideal)) (W2 m ρ c) (Proc.devRef .tc main_v26) = _
    after_results
    rfl
  rw [e, W2_main_arg4 m ρ c]
  exact reshape_eq_biasRow _ _

/-- The second region leaves level 0's substructure features in its output array. -/
theorem exit1 (c : Dev nD) : W4 (F := Ideal) m ρ c (Proc.devRef .tc main_v27) = s1 m c :=
  (W4_arr m ρ c 3).trans ((Cert.KernelIdeal.SubLinear0.array (V3 m ρ) c).trans (by
    rw [entry1_x m ρ c, entry1_w m ρ c, entry1_b m ρ c]; rfl))

theorem W4_main_arg5 (c : Dev nD) : W4 (F := Ideal) m ρ c (Proc.devRef .tc main_arg5) = arg m c main_arg5 :=
  (W4_of_ne m ρ c main_arg5 (by decide)).trans ((stretch1_main_arg5 m ρ c).trans ((W2_of_ne m ρ c main_arg5 (by decide)).trans ((stretch0_main_arg5 m ρ c))))
theorem W4_main_arg6 (c : Dev nD) : W4 (F := Ideal) m ρ c (Proc.devRef .tc main_arg6) = arg m c main_arg6 :=
  (W4_of_ne m ρ c main_arg6 (by decide)).trans ((stretch1_main_arg6 m ρ c).trans ((W2_of_ne m ρ c main_arg6 (by decide)).trans ((stretch0_main_arg6 m ρ c))))
theorem W4_main_arg12 (c : Dev nD) : W4 (F := Ideal) m ρ c (Proc.devRef .tc main_arg12) = arg m c main_arg12 :=
  (W4_of_ne m ρ c main_arg12 (by decide)).trans ((stretch1_main_arg12 m ρ c).trans ((W2_of_ne m ρ c main_arg12 (by decide)).trans ((stretch0_main_arg12 m ρ c))))
theorem W4_main_arg13 (c : Dev nD) : W4 (F := Ideal) m ρ c (Proc.devRef .tc main_arg13) = arg m c main_arg13 :=
  (W4_of_ne m ρ c main_arg13 (by decide)).trans ((stretch1_main_arg13 m ρ c).trans ((W2_of_ne m ρ c main_arg13 (by decide)).trans ((stretch0_main_arg13 m ρ c))))

theorem W4_main_v15 (c : Dev nD) : W4 (F := Ideal) m ρ c (Proc.devRef .tc main_v15) = x1 m c :=
  (W4_of_ne m ρ c main_v15 (by decide)).trans ((stretch1_main_v15 m ρ c).trans (exit0 m ρ c))

/-! ## The third region -/

theorem entry2_x (c : Dev nD) : V5 (F := Ideal) m ρ c main_v37 = subsToNodes (s1 m c) (arg m c main_arg12) (arg m c main_arg13) := by
  show StableHlo.after (hostOps2 (F := Ideal)) (W4 m ρ c) (Proc.devRef .tc main_v37) = _
  after_results_simp
  rw [exit1 m ρ c, W4_main_arg12 m ρ c, W4_main_arg13 m ρ c]
  rfl
theorem entry2_w (c : Dev nD) : V5 (F := Ideal) m ρ c main_arg5 = (arg m c main_arg5) := (stretch2_main_arg5 m ρ c).trans (W4_main_arg5 m ρ c)
theorem entry2_b (c : Dev nD) : V5 (F := Ideal) m ρ c main_v38 = biasRow (arg m c main_arg6) := by
  have e : V5 (F := Ideal) m ρ c main_v38 = shapeCast S1x128 (W4 (F := Ideal) m ρ c (Proc.devRef .tc main_arg6)) shapeCasts_S128_S1x128 := by
    show StableHlo.after (hostOps2 (F := Ideal)) (W4 m ρ c) (Proc.devRef .tc main_v38) = _
    after_results
    rfl
  rw [e, W4_main_arg6 m ρ c]
  exact reshape_eq_biasRow _ _
theorem entry2_r (c : Dev nD) : V5 (F := Ideal) m ρ c main_v15 = x1 m c := (stretch2_main_v15 m ρ c).trans (W4_main_v15 m ρ c)

/-- The third region leaves the node features after level 0 in its output array. -/
theorem exit2 (c : Dev nD) : W6 (F := Ideal) m ρ c (Proc.devRef .tc main_v39) = x2 m c :=
  (W6_arr m ρ c 4).trans ((Cert.KernelIdeal.NodeResidual0.array (V5 m ρ) c).trans (by
    rw [entry2_x m ρ c, entry2_w m ρ c, entry2_b m ρ c, entry2_r m ρ c]; rfl))

theorem W6_main_arg7 (c : Dev nD) : W6 (F := Ideal) m ρ c (Proc.devRef .tc main_arg7) = arg m c main_arg7 :=
  (W6_of_ne m ρ c main_arg7 (by decide)).trans ((stretch2_main_arg7 m ρ c).trans ((W4_of_ne m ρ c main_arg7 (by decide)).trans ((stretch1_main_arg7 m ρ c).trans ((W2_of_ne m ρ c main_arg7 (by decide)).trans ((stretch0_main_arg7 m ρ c))))))
theorem W6_main_arg8 (c : Dev nD) : W6 (F := Ideal) m ρ c (Proc.devRef .tc main_arg8) = arg m c main_arg8 :=
  (W6_of_ne m ρ c main_arg8 (by decide)).trans ((stretch2_main_arg8 m ρ c).trans ((W4_of_ne m ρ c main_arg8 (by decide)).trans ((stretch1_main_arg8 m ρ c).trans ((W2_of_ne m ρ c main_arg8 (by decide)).trans ((stretch0_main_arg8 m ρ c))))))
theorem W6_main_arg14 (c : Dev nD) : W6 (F := Ideal) m ρ c (Proc.devRef .tc main_arg14) = arg m c main_arg14 :=
  (W6_of_ne m ρ c main_arg14 (by decide)).trans ((stretch2_main_arg14 m ρ c).trans ((W4_of_ne m ρ c main_arg14 (by decide)).trans ((stretch1_main_arg14 m ρ c).trans ((W2_of_ne m ρ c main_arg14 (by decide)).trans ((stretch0_main_arg14 m ρ c))))))
theorem W6_main_arg15 (c : Dev nD) : W6 (F := Ideal) m ρ c (Proc.devRef .tc main_arg15) = arg m c main_arg15 :=
  (W6_of_ne m ρ c main_arg15 (by decide)).trans ((stretch2_main_arg15 m ρ c).trans ((W4_of_ne m ρ c main_arg15 (by decide)).trans ((stretch1_main_arg15 m ρ c).trans ((W2_of_ne m ρ c main_arg15 (by decide)).trans ((stretch0_main_arg15 m ρ c))))))

/-! ## The fourth region -/

theorem entry3_x (c : Dev nD) : V7 (F := Ideal) m ρ c main_v49 = nodesToSubs (x2 m c) (arg m c main_arg14) (arg m c main_arg15) := by
  show StableHlo.after (hostOps3 (F := Ideal)) (W6 m ρ c) (Proc.devRef .tc main_v49) = _
  after_results_simp
  rw [exit2 m ρ c, W6_main_arg14 m ρ c, W6_main_arg15 m ρ c]
  rfl
theorem entry3_w (c : Dev nD) : V7 (F := Ideal) m ρ c main_arg7 = (arg m c main_arg7) := (stretch3_main_arg7 m ρ c).trans (W6_main_arg7 m ρ c)
theorem entry3_b (c : Dev nD) : V7 (F := Ideal) m ρ c main_v50 = biasRow (arg m c main_arg8) := by
  have e : V7 (F := Ideal) m ρ c main_v50 = shapeCast S1x128 (W6 (F := Ideal) m ρ c (Proc.devRef .tc main_arg8)) shapeCasts_S128_S1x128 := by
    show StableHlo.after (hostOps3 (F := Ideal)) (W6 m ρ c) (Proc.devRef .tc main_v50) = _
    after_results
    rfl
  rw [e, W6_main_arg8 m ρ c]
  exact reshape_eq_biasRow _ _

/-- The fourth region leaves level 1's substructure features in its output array. -/
theorem exit3 (c : Dev nD) : W8 (F := Ideal) m ρ c (Proc.devRef .tc main_v51) = s2 m c :=
  (W8_arr m ρ c 3).trans ((Cert.KernelIdeal.SubLinear1.array (V7 m ρ) c).trans (by
    rw [entry3_x m ρ c, entry3_w m ρ c, entry3_b m ρ c]; rfl))

theorem W8_main_arg9 (c : Dev nD) : W8 (F := Ideal) m ρ c (Proc.devRef .tc main_arg9) = arg m c main_arg9 :=
  (W8_of_ne m ρ c main_arg9 (by decide)).trans ((stretch3_main_arg9 m ρ c).trans ((W6_of_ne m ρ c main_arg9 (by decide)).trans ((stretch2_main_arg9 m ρ c).trans ((W4_of_ne m ρ c main_arg9 (by decide)).trans ((stretch1_main_arg9 m ρ c).trans ((W2_of_ne m ρ c main_arg9 (by decide)).trans ((stretch0_main_arg9 m ρ c))))))))
theorem W8_main_arg10 (c : Dev nD) : W8 (F := Ideal) m ρ c (Proc.devRef .tc main_arg10) = arg m c main_arg10 :=
  (W8_of_ne m ρ c main_arg10 (by decide)).trans ((stretch3_main_arg10 m ρ c).trans ((W6_of_ne m ρ c main_arg10 (by decide)).trans ((stretch2_main_arg10 m ρ c).trans ((W4_of_ne m ρ c main_arg10 (by decide)).trans ((stretch1_main_arg10 m ρ c).trans ((W2_of_ne m ρ c main_arg10 (by decide)).trans ((stretch0_main_arg10 m ρ c))))))))
theorem W8_main_arg14 (c : Dev nD) : W8 (F := Ideal) m ρ c (Proc.devRef .tc main_arg14) = arg m c main_arg14 :=
  (W8_of_ne m ρ c main_arg14 (by decide)).trans ((stretch3_main_arg14 m ρ c).trans ((W6_of_ne m ρ c main_arg14 (by decide)).trans ((stretch2_main_arg14 m ρ c).trans ((W4_of_ne m ρ c main_arg14 (by decide)).trans ((stretch1_main_arg14 m ρ c).trans ((W2_of_ne m ρ c main_arg14 (by decide)).trans ((stretch0_main_arg14 m ρ c))))))))
theorem W8_main_arg15 (c : Dev nD) : W8 (F := Ideal) m ρ c (Proc.devRef .tc main_arg15) = arg m c main_arg15 :=
  (W8_of_ne m ρ c main_arg15 (by decide)).trans ((stretch3_main_arg15 m ρ c).trans ((W6_of_ne m ρ c main_arg15 (by decide)).trans ((stretch2_main_arg15 m ρ c).trans ((W4_of_ne m ρ c main_arg15 (by decide)).trans ((stretch1_main_arg15 m ρ c).trans ((W2_of_ne m ρ c main_arg15 (by decide)).trans ((stretch0_main_arg15 m ρ c))))))))

theorem W8_main_v39 (c : Dev nD) : W8 (F := Ideal) m ρ c (Proc.devRef .tc main_v39) = x2 m c :=
  (W8_of_ne m ρ c main_v39 (by decide)).trans ((stretch3_main_v39 m ρ c).trans (exit2 m ρ c))

/-! ## The fifth region -/

theorem entry4_x (c : Dev nD) : V9 (F := Ideal) m ρ c main_v61 = subsToNodes (s2 m c) (arg m c main_arg14) (arg m c main_arg15) := by
  show StableHlo.after (hostOps4 (F := Ideal)) (W8 m ρ c) (Proc.devRef .tc main_v61) = _
  after_results_simp
  rw [exit3 m ρ c, W8_main_arg14 m ρ c, W8_main_arg15 m ρ c]
  rfl
theorem entry4_w (c : Dev nD) : V9 (F := Ideal) m ρ c main_arg9 = (arg m c main_arg9) := (stretch4_main_arg9 m ρ c).trans (W8_main_arg9 m ρ c)
theorem entry4_b (c : Dev nD) : V9 (F := Ideal) m ρ c main_v62 = biasRow (arg m c main_arg10) := by
  have e : V9 (F := Ideal) m ρ c main_v62 = shapeCast S1x128 (W8 (F := Ideal) m ρ c (Proc.devRef .tc main_arg10)) shapeCasts_S128_S1x128 := by
    show StableHlo.after (hostOps4 (F := Ideal)) (W8 m ρ c) (Proc.devRef .tc main_v62) = _
    after_results
    rfl
  rw [e, W8_main_arg10 m ρ c]
  exact reshape_eq_biasRow _ _
theorem entry4_r (c : Dev nD) : V9 (F := Ideal) m ρ c main_v39 = x2 m c := (stretch4_main_v39 m ρ c).trans (W8_main_v39 m ρ c)

/-- The fifth region leaves the network's result in the program's result buffer. -/
theorem exit4 (c : Dev nD) : W10 (F := Ideal) m ρ c (Proc.devRef .tc main_v63) = x3 m c :=
  (W10_arr m ρ c 4).trans ((Cert.KernelIdeal.NodeResidual1.array (V9 m ρ) c).trans (by
    rw [entry4_x m ρ c, entry4_w m ρ c, entry4_b m ρ c, entry4_r m ρ c]; rfl))

/-- The result buffer's final contents: the network of the sixteen launch arguments. -/
theorem result (c : Dev nD) : W10 (F := Ideal) m ρ c (Proc.devRef .tc main_v63)
    = network (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) :=
  exit4 m ρ c

end Cert.KernelIdeal.Boundaries

end
-- ==== Proof.ReferenceValue.lean ====
/-
  The reference's result is the network of its arguments.

  The reference is one stretch of host operations. Its result buffer's composed term applies, to the launch arguments, exactly the
  operations the network is written with: the three aggregations, the host's matrix products, the bias rows and `max(·, 0)`.
  Unfolding the network's definitions gives that term back, operation for operation.
-/
import proofs.«124323_j44744969290501_1_alg».proof.Proof.Gen.ReferenceIdeal.Run
import proofs.«124323_j44744969290501_1_alg».proof.Proof.Network

set_option maxRecDepth 16384

noncomputable section

namespace Cert.ReferenceIdeal.RefValue

open Idealize.ShloMosaic Idealize.ShloMosaic.TcCoe Idealize.SL.Sem
open Cert.ReferenceIdeal Cert.ReferenceIdeal.Gen Cert.Network Cert.Layers

theorem result_eq (m : (ℓ : Loc nD τ sig) → Buf (Elt Ideal) ℓ) (c : Dev nD) :
    Cert.ReferenceIdeal.Value.res_main_v77 (F := Ideal) m c
      = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) := by
  unfold Cert.ReferenceIdeal.Value.res_main_v77 network level subFeatures combine relu50 linear50 linear20 biasRow
    nodesToSubs subsToNodes neighbours edgeSources edgeTargets
  rfl

end Cert.ReferenceIdeal.RefValue

end
-- ==== Proof.lean ====
/-
  The kernel and its reference compute one function: a three-stage message-passing network.

  Both programs take node features `x`, five weight matrices with their biases, and three edge lists. Both aggregate features along
  the edges with the same host operations (gather, then scatter-add onto zeros) and differ only in how the dense layers between the
  aggregations are computed. The reference applies the host's matrix product to the whole feature matrix. The kernel runs each layer
  as a region that tiles the rows into blocks of 5000, multiplies each block by the whole weight on the matrix unit, adds the bias row,
  and writes the block back; for the layers with a residual connection it adds the incoming features before the bias where the
  reference adds them after. On the extended reals a block of a matrix product is the product of the block, the blocks cover every
  row once, and addition is associative, so each region's output array is the reference's layer of the same inputs. Following the
  buffers through the ten segments of the kernel program, its result buffer ends holding the network of the launch arguments, and
  the reference's composed term is that same network. No law used needs the inputs to be finite.
  The idealization rewrote nothing, so the statement relating the kernel to its idealization is trivial. The two kernel programs'
  frames are the generated ones; the reference's frame is its generated run with the result dropped.
-/
import proofs.«124323_j44744969290501_1_alg».proof.Defs
import proofs.«124323_j44744969290501_1_alg».proof.Proof.Gen.Kernel
import proofs.«124323_j44744969290501_1_alg».proof.Proof.Gen.Kernel.Frame
import proofs.«124323_j44744969290501_1_alg».proof.Proof.Gen.KernelIdeal
import proofs.«124323_j44744969290501_1_alg».proof.Proof.Gen.KernelIdeal.Frame
import proofs.«124323_j44744969290501_1_alg».proof.Proof.Gen.ReferenceIdeal
import proofs.«124323_j44744969290501_1_alg».proof.Proof.Gen.Pre_finite_inputs
import proofs.«124323_j44744969290501_1_alg».proof.Proof.Gen.ReferenceIdeal.Run
import proofs.«124323_j44744969290501_1_alg».proof.Proof.Gen.ReferenceIdeal.Read
import proofs.«124323_j44744969290501_1_alg».proof.Proof.KernelRun
import proofs.«124323_j44744969290501_1_alg».proof.Proof.Boundaries
import proofs.«124323_j44744969290501_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end with the network of the (agreeing) launch arguments in their result buffers. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Boundaries.result m ρ c), (h c).2⟩)
    (Cert.KernelIdeal.Run.result_and_arguments (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.RefValue.result_eq, h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
